-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S50000x128 : Shape := ⟨2, ![50000, 128]⟩
abbrev S128x256 : Shape := ⟨2, ![128, 256]⟩
abbrev S128 : Shape := ⟨1, ![128]⟩
abbrev S500000 : Shape := ⟨1, ![500000]⟩
abbrev S_ : Shape := ⟨0, ![]⟩
abbrev S1 : Shape := ⟨1, ![1]⟩
abbrev S499999 : Shape := ⟨1, ![499999]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  slices_S500000_S499999_1 : S500000.Slices ![1] S499999
  slices_S500000_S499999_0 : S500000.Slices ![0] S499999
  natLt_1_32 : 1 < 32
  concatenates_S1_S499999_S500000_d0 : Shape.Concatenates [S1, S499999] S500000 0
  reduceWindows_S500000_S500000_w500000s1p499999_0 : S500000.ReduceWindows (![500000] : Fin 1 → Nat) ![1] ![499999] ![0] S500000
  bcast_S_S500000 : S_.BroadcastsInDim S500000 (![] : Fin 0 → Fin S500000.rank)
  reducesTo_S500000_S_d0 : S500000.ReducesTo [0] S_

variable [Facts]

def fn_part2 {F : FTy → Type} [FloatOps F] (main_v28 : IVec S_ 1) (main_v34 : IVec S500000 32) : IVec S_ 1 :=
  let main_c_11 : IVec S_ 32 := constantI S_ 32 0#32
  let main_v35 : IVec S500000 32 := (fun x v => Host.reduceWindow IntOp.addi ![500000] ![1] ![499999] ![0] x v reduceWindows_S500000_S500000_w500000s1p499999_0 h_S_) main_v34 main_c_11
  let main_c_12 : IVec S_ 32 := constantI S_ 32 0#32
  let main_v36 : IVec S500000 32 := broadcastInDim S500000 ![] bcast_S_S500000 main_c_12
  let main_v37 : IVec S500000 1 := cmpi .sge main_v35 main_v36
  let main_c_13 : IVec S_ 32 := constantI S_ 32 50000#32
  let main_v38 : IVec S500000 32 := broadcastInDim S500000 ![] bcast_S_S500000 main_c_13
  let main_v39 : IVec S500000 1 := cmpi .slt main_v35 main_v38
  let main_v40 : IVec S500000 1 := andi main_v37 main_v39
  let main_c_14 : IVec S_ 1 := constantI S_ 1 1#1
  let main_v41 : IVec S_ 1 := (fun x v => Host.reduce IntOp.andi x v reducesTo_S500000_S_d0 h_S_) main_v40 main_c_14
  let main_v42 : IVec S_ 1 := andi main_v28 main_v41
  main_v42

def fn_part1 {F : FTy → Type} [FloatOps F] (main_arg4 : FVec F S128x256 .f32) (main_arg5 : FVec F S128 .f32) (main_arg6 : IVec S500000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S1 32 := broadcastInDim S1 ![] bcast_S_S1 main_c_10
  let main_v30 : IVec S499999 32 := (extractStridedSlice S499999 ![1] · slices_S500000_S499999_1) main_arg6
  let main_v31 : IVec S499999 32 := (extractStridedSlice S499999 ![0] · slices_S500000_S499999_0) main_arg6
  let main_v32 : IVec S499999 1 := cmpi .ne main_v30 main_v31
  let main_v33 : IVec S499999 32 := (extui 32 · natLt_1_32) main_v32
  let main_v34 : IVec S500000 32 := (fun a b => concatenate S500000 0 [⟨S1, a⟩, ⟨S499999, b⟩] concatenates_S1_S499999_S500000_d0) main_v29 main_v33
  fn_part2 (F := F) main_v28 main_v34

def fn {F : FTy → Type} [FloatOps F] (main_arg0 : FVec F S500000x128 .f32) (main_arg1 : FVec F S50000x128 .f32) (main_arg2 : FVec F S128x256 .f32) (main_arg3 : FVec F S128 .f32) (main_arg4 : FVec F S128x256 .f32) (main_arg5 : FVec F S128 .f32) (main_arg6 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S500000x128 : Shape := ⟨2, ![500000, 128]⟩
abbrev S50000x128 : Shape := ⟨2, ![50000, 128]⟩
abbrev S128x256 : Shape := ⟨2, ![128, 256]⟩
abbrev S128 : Shape := ⟨1, ![128]⟩
abbrev S500000 : Shape := ⟨1, ![500000]⟩
abbrev S_ : Shape := ⟨0, ![]⟩
abbrev S1 : Shape := ⟨1, ![1]⟩
abbrev S499999 : Shape := ⟨1, ![499999]⟩
abbrev S500000x1 : Shape := ⟨2, ![500000, 1]⟩
abbrev S50000 : Shape := ⟨1, ![50000]⟩
abbrev S50000x1 : Shape := ⟨2, ![50000, 1]⟩
abbrev S1x1 : Shape := ⟨2, ![1, 1]⟩
abbrev S128x128 : Shape := ⟨2, ![128, 128]⟩
abbrev S1x128 : Shape := ⟨2, ![1, 128]⟩
abbrev S5000x128 : Shape := ⟨2, ![5000, 128]⟩

abbrev nBuf : Space → Nat
  | .hbm => 76
  | .vmem => 18
  | .smem => 0
  | _ => 0

abbrev bufTy : (tb : Table) → Fin (tcTables nBuf tb) → BufTy
  | .hbm, ⟨0, _⟩ => ⟨S500000x128, .f32⟩
  | .hbm, ⟨1, _⟩ => ⟨S50000x128, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S500000, .i32⟩
  | .hbm, ⟨7, _⟩ => ⟨S_, .i32⟩
  | .hbm, ⟨8, _⟩ => ⟨S1, .i32⟩
  | .hbm, ⟨9, _⟩ => ⟨S499999, .i32⟩
  | .hbm, ⟨10, _⟩ => ⟨S499999, .i32⟩
  | .hbm, ⟨11, _⟩ => ⟨S499999, .i1⟩
  | .hbm, ⟨12, _⟩ => ⟨S499999, .i32⟩
  | .hbm, ⟨13, _⟩ => ⟨S500000, .i32⟩
  | .hbm, ⟨14, _⟩ => ⟨S_, .i32⟩
  | .hbm, ⟨15, _⟩ => ⟨S_, .i32⟩
  | .hbm, ⟨16, _⟩ => ⟨S500000, .i32⟩
  | .hbm, ⟨17, _⟩ => ⟨S_, .f32⟩
  | .hbm, ⟨18, _⟩ => ⟨S50000x128, .f32⟩
  | .hbm, ⟨19, _⟩ => ⟨S500000x1, .i32⟩
  | .hbm, ⟨20, _⟩ => ⟨S50000x128, .f32⟩
  | .hbm, ⟨21, _⟩ => ⟨S_, .f32⟩
  | .hbm, ⟨22, _⟩ => ⟨S500000, .f32⟩
  | .hbm, ⟨23, _⟩ => ⟨S_, .f32⟩
  | .hbm, ⟨24, _⟩ => ⟨S50000, .f32⟩
  | .hbm, ⟨25, _⟩ => ⟨S500000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000, .i32⟩
  | .hbm, ⟨34, _⟩ => ⟨S1, .i32⟩
  | .hbm, ⟨35, _⟩ => ⟨S_, .i32⟩
  | .hbm, ⟨36, _⟩ => ⟨S50000, .i32⟩
  | .hbm, ⟨37, _⟩ => ⟨S50000, .i1⟩
  | .hbm, ⟨38, _⟩ => ⟨S50000x1, .i1⟩
  | .hbm, ⟨39, _⟩ => ⟨S50000x128, .i1⟩
  | .hbm, ⟨40, _⟩ => ⟨S50000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S1, .i32⟩
  | .hbm, ⟨50, _⟩ => ⟨S_, .i32⟩
  | .hbm, ⟨51, _⟩ => ⟨S500000x1, .i32⟩
  | .hbm, ⟨52, _⟩ => ⟨S500000x1, .i1⟩
  | .hbm, ⟨53, _⟩ => ⟨S1x1, .i32⟩
  | .hbm, ⟨54, _⟩ => ⟨S500000x1, .i32⟩
  | .hbm, ⟨55, _⟩ => ⟨S500000x1, .i1⟩
  | .hbm, ⟨56, _⟩ => ⟨S500000x1, .i1⟩
  | .hbm, ⟨57, _⟩ => ⟨S_, .i1⟩
  | .hbm, ⟨58, _⟩ => ⟨S500000, .i1⟩
  | .hbm, ⟨59, _⟩ => ⟨S500000x128, .f32⟩
  | .hbm, ⟨60, _⟩ => ⟨S500000x128, .i1⟩
  | .hbm, ⟨61, _⟩ => ⟨S_, .f32⟩
  | .hbm, ⟨62, _⟩ => ⟨S500000x128, .f32⟩
  | .hbm, ⟨63, _⟩ => ⟨S500000x128, .f32⟩
  | .hbm, ⟨64, _⟩ => ⟨S128x128, .f32⟩
  | .hbm, ⟨65, _⟩ => ⟨S128x128, .f32⟩
  | .hbm, ⟨66, _⟩ => ⟨S128x128, .f32⟩
  | .hbm, ⟨67, _⟩ => ⟨S128x128, .f32⟩
  | .hbm, ⟨68, _⟩ => ⟨S128x128, .f32⟩
  | .hbm, ⟨69, _⟩ => ⟨S128x128, .f32⟩
  | .hbm, ⟨70, _⟩ => ⟨S128x128, .f32⟩
  | .hbm, ⟨71, _⟩ => ⟨S128x128, .f32⟩
  | .hbm, ⟨72, _⟩ => ⟨S1x128, .f32⟩
  | .hbm, ⟨73, _⟩ => ⟨S1x128, .f32⟩
  | .hbm, ⟨74, _⟩ => ⟨S500000x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_call0_c : Ref sig .tc := ⟨.hbm, 14, rfl⟩
abbrev main_call0_call0_v0 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_v25 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1 : S_.BroadcastsInDim S1 (![] : Fin 0 → Fin S1.rank)
  slices_S500000_S499999_1 : S500000.Slices ![1] S499999
  slices_S500000_S499999_0 : S500000.Slices ![0] S499999
  natLt_1_32 : 1 < 32
  concatenates_S1_S499999_S500000_d0 : Shape.Concatenates [S1, S499999] S500000 0
  bcast_S_S_ : S_.BroadcastsInDim S_ (![] : Fin 0 → Fin S_.rank)
  reduceWindows_S500000_S500000_w500000s1p499999_0 : S500000.ReduceWindows (![500000] : Fin 1 → Nat) ![1] ![499999] ![0] S500000
  h_S_ : 0 < S_.numel
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S500000_S1_499999 : S500000.Slices ![499999] S1
  shapeCasts_S1_S_ : S1.ShapeCasts S_
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  bcast_S500000_S500000x128_0 : S500000.BroadcastsInDim S500000x128 (![0] : Fin 1 → Fin S500000x128.rank)
  bcast_S_S500000x128 : S_.BroadcastsInDim S500000x128 (![] : Fin 0 → Fin S500000x128.rank)
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S500000x128.size a
  hwx0_5 : ∀ i : grid0.Coords, EltTy.bits .f32 = 32 ∨ (Rect.block (s := S500000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S50000x128 : Shape := ⟨2, ![50000, 128]⟩
abbrev S128x256 : Shape := ⟨2, ![128, 256]⟩
abbrev S128 : Shape := ⟨1, ![128]⟩
abbrev S500000 : Shape := ⟨1, ![500000]⟩
abbrev S_ : Shape := ⟨0, ![]⟩
abbrev S1 : Shape := ⟨1, ![1]⟩
abbrev S499999 : Shape := ⟨1, ![499999]⟩
abbrev S500000x1 : Shape := ⟨2, ![500000, 1]⟩
abbrev S50000 : Shape := ⟨1, ![50000]⟩
abbrev S50000x1 : Shape := ⟨2, ![50000, 1]⟩
abbrev S500000x256 : Shape := ⟨2, ![500000, 256]⟩
abbrev S50000x256 : Shape := ⟨2, ![50000, 256]⟩
abbrev S256x128 : Shape := ⟨2, ![256, 128]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S50000x128, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S500000, .i32⟩
  | .hbm, ⟨7, _⟩ => ⟨S_, .i32⟩
  | .hbm, ⟨8, _⟩ => ⟨S1, .i32⟩
  | .hbm, ⟨9, _⟩ => ⟨S499999, .i32⟩
  | .hbm, ⟨10, _⟩ => ⟨S499999, .i32⟩
  | .hbm, ⟨11, _⟩ => ⟨S499999, .i1⟩
  | .hbm, ⟨12, _⟩ => ⟨S499999, .i32⟩
  | .hbm, ⟨13, _⟩ => ⟨S500000, .i32⟩
  | .hbm, ⟨14, _⟩ => ⟨S_, .i32⟩
  | .hbm, ⟨15, _⟩ => ⟨S_, .i32⟩
  | .hbm, ⟨16, _⟩ => ⟨S500000, .i32⟩
  | .hbm, ⟨17, _⟩ => ⟨S_, .f32⟩
  | .hbm, ⟨18, _⟩ => ⟨S50000x128, .f32⟩
  | .hbm, ⟨19, _⟩ => ⟨S500000x1, .i32⟩
  | .hbm, ⟨20, _⟩ => ⟨S50000x128, .f32⟩
  | .hbm, ⟨21, _⟩ => ⟨S_, .f32⟩
  | .hbm, ⟨22, _⟩ => ⟨S500000, .f32⟩
  | .hbm, ⟨23, _⟩ => ⟨S_, .f32⟩
  | .hbm, ⟨24, _⟩ => ⟨S50000, .f32⟩
  | .hbm, ⟨25, _⟩ => ⟨S500000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S50000x128, .f32⟩
  | .hbm, ⟨32, _⟩ => ⟨S50000x128, .f32⟩
  | .hbm, ⟨33, _⟩ => ⟨S50000, .i32⟩
  | .hbm, ⟨34, _⟩ => ⟨S1, .i32⟩
  | .hbm, ⟨35, _⟩ => ⟨S_, .i32⟩
  | .hbm, ⟨36, _⟩ => ⟨S50000, .i32⟩
  | .hbm, ⟨37, _⟩ => ⟨S50000, .i1⟩
  | .hbm, ⟨38, _⟩ => ⟨S50000x1, .i1⟩
  | .hbm, ⟨39, _⟩ => ⟨S50000x128, .i1⟩
  | .hbm, ⟨40, _⟩ => ⟨S50000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x256, .f32⟩
  | .hbm, ⟨51, _⟩ => ⟨S50000x256, .f32⟩
  | .hbm, ⟨52, _⟩ => ⟨S256x128, .f32⟩
  | .hbm, ⟨53, _⟩ => ⟨S500000x128, .f32⟩
  | .hbm, ⟨54, _⟩ => ⟨S1x128, .f32⟩
  | .hbm, ⟨55, _⟩ => ⟨S500000x128, .f32⟩
  | .hbm, ⟨56, _⟩ => ⟨S500000x128, .f32⟩
  | .hbm, ⟨57, _⟩ => ⟨S256x128, .f32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S50000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_call0_c : Ref sig .tc := ⟨.hbm, 14, rfl⟩
abbrev main_call0_call0_v0 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S1 : S_.BroadcastsInDim S1 (![] : Fin 0 → Fin S1.rank)
  slices_S500000_S499999_1 : S500000.Slices ![1] S499999
  slices_S500000_S499999_0 : S500000.Slices ![0] S499999
  natLt_1_32 : 1 < 32
  concatenates_S1_S499999_S500000_d0 : Shape.Concatenates [S1, S499999] S500000 0
  bcast_S_S_ : S_.BroadcastsInDim S_ (![] : Fin 0 → Fin S_.rank)
  reduceWindows_S500000_S500000_w500000s1p499999_0 : S500000.ReduceWindows (![500000] : Fin 1 → Nat) ![1] ![499999] ![0] S500000
  h_S_ : 0 < S_.numel
  bcast_S_S50000x128 : S_.BroadcastsInDim S50000x128 (![] : Fin 0 → Fin S50000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S500000_S1_499999 : S500000.Slices ![499999] S1
  shapeCasts_S1_S_ : S1.ShapeCasts S_
  concatenates_S500000x128_S500000x128_S500000x256_d1 : Shape.Concatenates [S500000x128, S500000x128] S500000x256 1
  concatenates_S50000x128_S50000x128_S50000x256_d1 : Shape.Concatenates [S50000x128, S50000x128] S50000x256 1
  transposes_S128x256_S256x128_1_0 : S128x256.Transposes [1, 0] S256x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S1x128_S50000x128_0_1 : S1x128.BroadcastsInDim S50000x128 (![0, 1] : Fin 2 → Fin S50000x128.rank)
  scatter_S50000x128_S500000x1_S500000x128_1_0_0_1_wf : ScatterDims.WF S50000x128 S500000x1 S500000x128 [1] [0] [0] 1
  scatter_S50000_S500000x1_S500000_n_0_0_1_wf : ScatterDims.WF S50000 S500000x1 S500000 [] [0] [0] 1
  gather_S50000x128_S500000x1_S500000x128_1_0_n_n_0_1_1128_wf : GatherDims.WF S50000x128 S500000x1 S500000x128 [1] [0] [] [0] [] 1 ![1, 128]
  dot_S500000x256_S256x128_S500000x128_1_0_0_1_n_n_wf : DotDims.WF S500000x256 S256x128 S500000x128 [1] [0] [0] [1] [] []
  dot_S50000x256_S256x128_S50000x128_1_0_0_1_n_n_wf : DotDims.WF S50000x256 S256x128 S50000x128 [1] [0] [0] [1] [] []

variable [Facts₀]

def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
import proofs.«163152_j90013924590246_1_alg».proof.Proof.Gen.KernelIdeal.Frame

/-!
  The kernel program's run with its two results named.

  The program is six stretches of host operations followed by two pipelined regions. The contents of every buffer at
  each boundary are a fold from the launch memory: a stretch rewrites the buffers its operations write, a region
  rewrites its output array with what its write-backs leave and keeps every other buffer. Read at the end of the run,
  the first result is what region 0 leaves in its output array (region 1 touches none of region 0's arrays), the
  second result is what region 1 leaves in its output array, and no argument array is written by anything.
-/

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0's output array is the first result, region 1's the second. -/
theorem arr0_5 : Pipeline.arrRef spec0 5 = main_v37 := rfl
theorem arr1_5 : Pipeline.arrRef spec1 5 = main_v38 := rfl

/-- The first result at the end of the run: region 1 has no window on it, so it holds what region 0 left. -/
theorem W8_main_v37 (c : Dev nD) :
    W8 m ρ c (Proc.devRef .tc main_v37) = (dat0 (V6 m ρ) c).arrAt 5 cfg0.N :=
  (W8_of_ne m ρ c main_v37 (by decide)).trans (W7_arr m ρ c 5)

/-- The second result at the end of the run: what region 1 left in its output array. -/
theorem W8_main_v38 (c : Dev nD) :
    W8 m ρ c (Proc.devRef .tc main_v38) = (dat1 (V7 m ρ) c).arrAt 5 cfg1.N :=
  W8_arr m ρ c 5

-- the launch theorem's implicit arguments are found by unifying its conclusion with this one, which takes unfolding
-- plain definitions in a metavariable's type
set_option backward.isDefEq.respectTransparency.types false in
/-- From any memory with zero counters every weakly fair execution of the program on the TensorCores terminates,
    nothing faulting, and in every final state the first result is what region 0's write-backs leave in its output
    array (entered from the contents after the six host stretches), the second result what region 1's leave in its
    own (entered from region 0's exit contents), and the seven argument arrays are as launched. -/
theorem run : θ_run (Cert.KernelIdeal.defs (F := F)) (onTc (τ := τ) (Cert.KernelIdeal.main (F := F))) ⟨m, fun _ => 0, ρ⟩ (fun r => ∀ c : Dev nD,
      r.2.mem ((c.tc : Thread nD τ).loc main_v37) = (Gen.dat0 (Gen.V6 m ρ) c).arrAt 5 cfg0.N
      ∧ r.2.mem ((c.tc : Thread nD τ).loc main_v38) = (Gen.dat1 (Gen.V7 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨(h c _ (mem_uc main_v37 (by decide))).trans (W8_main_v37 m ρ c),
       (h c _ (mem_uc main_v38 (by decide))).trans (W8_main_v38 m ρ c),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelRun

end
-- ==== Proof.Shared.lean ====
/-
  The quantities both programs compute before their two linear layers, each as one function of the argument arrays.

  From the ids the programs form the boundary indicator (0 at position 0, then 1 where an id differs from its
  predecessor) and its running sum: the group index of every row. With it they form
  * impSecond: per group, the sum of the rows of x in the group divided by max(count, 1), kept for the groups below
    the last group index and replaced by the row of imp elsewhere;
  * rowIdx: the group index with negative entries shifted by the number of groups, as a one-column index table;
  * gathered: the rows of imp picked by rowIdx, an out-of-range index clamped;
  * taken: the same rows, but a row whose index is out of range filled with the not-a-number word.
  The shape facts are the idealized kernel program's; any other witness of the same propositions gives the same terms.
-/
import proofs.«163152_j90013924590246_1_alg».proof.KernelIdeal

noncomputable section

namespace Cert.Shared

open Idealize.ShloMosaic
open Cert.KernelIdeal Cert.KernelIdeal.Facts₀

variable {F : FTy → Type} [FloatOps F] [Cert.KernelIdeal.Facts]

/-- 0 at position 0, then 1 where an id differs from the one before it. -/
def boundary (src : IVec S500000 32) : IVec S500000 32 :=
  concatenate S500000 0
    [⟨S1, broadcastInDim S1 ![] bcast_S_S1 (constantI S_ 32 0#32)⟩,
     ⟨S499999, extui 32 (cmpi .ne (extractStridedSlice S499999 ![1] src slices_S500000_S499999_1)
        (extractStridedSlice S499999 ![0] src slices_S500000_S499999_0)) natLt_1_32⟩]
    concatenates_S1_S499999_S500000_d0

/-- The group index of every row: the running sum of the boundary indicator. -/
def gid (src : IVec S500000 32) : IVec S500000 32 :=
  Host.reduceWindow IntOp.addi ![500000] ![1] ![499999] ![0] (boundary src)
    (broadcastInDim S_ ![] bcast_S_S_ (constantI S_ 32 0#32)) reduceWindows_S500000_S500000_w500000s1p499999_0 h_S_

/-- Per group the mean of its rows of x (sum over max(count, 1)) for the groups below the last group index, the row
    of imp for the others. -/
def impSecond (x : FVec F S500000x128 .f32) (imp : FVec F S50000x128 .f32) (g : IVec S500000 32) : FVec F S50000x128 .f32 :=
  select
    (broadcastInDim S50000x128 ![0, 1] bcast_S50000x1_S50000x128_0_1
      (broadcastInDim S50000x1 ![0] bcast_S50000_S50000x1_0
        (cmpi .slt (iotaInDim S50000 32 0)
          (broadcastInDim S50000 ![] bcast_S_S50000
            (shapeCast S_ (extractStridedSlice S1 ![499999] g slices_S500000_S1_499999) shapeCasts_S1_S_)))))
    (Host.divf
      (Host.scatterAdd scatter_S50000x128_S500000x1_S500000x128_1_0_0_1
        (broadcastInDim S50000x128 ![] bcast_S_S50000x128 (constant S_ .f32 0x00000000#32))
        (broadcastInDim S500000x1 ![0] bcast_S500000_S500000x1_0 g) x)
      (broadcastInDim S50000x128 ![0, 1] bcast_S50000x1_S50000x128_0_1
        (broadcastInDim S50000x1 ![0] bcast_S50000_S50000x1_0
          (maximumf
            (Host.scatterAdd scatter_S50000_S500000x1_S500000_n_0_0_1
              (broadcastInDim S50000 ![] bcast_S_S50000 (constant S_ .f32 0x00000000#32))
              (broadcastInDim S500000x1 ![0] bcast_S500000_S500000x1_0 g)
              (broadcastInDim S500000 ![] bcast_S_S500000 (constant S_ .f32 0x3F800000#32)))
            (broadcastInDim S50000 ![] bcast_S_S50000 (constant S_ .f32 0x3F800000#32))))))
    imp

/-- The group index with negative entries shifted by 50000, as a one-column table. -/
def rowIdx (g : IVec S500000 32) : IVec S500000x1 32 :=
  broadcastInDim S500000x1 ![0] bcast_S500000_S500000x1_0
    (select (cmpi .slt g (broadcastInDim S500000 ![] bcast_S_S500000 (constantI S_ 32 0#32)))
      (addi g (broadcastInDim S500000 ![] bcast_S_S500000 (constantI S_ 32 50000#32))) g)

/-- The rows of imp picked by the index table, an out-of-range index clamped. -/
def gathered (imp : FVec F S50000x128 .f32) (g : IVec S500000 32) : FVec F S500000x128 .f32 :=
  Host.gather gather_S50000x128_S500000x1_S500000x128_1_0_n_n_0_1_1128 imp (rowIdx g)

/-- Whether a row's index lies in 0 … 49999, spread over the row. -/
def inRange (g : IVec S500000 32) : IVec S500000x128 1 :=
  broadcastInDim S500000x128 ![0] bcast_S500000_S500000x128_0
    (Host.reduce IntOp.andi
      (andi (cmpi .sge (rowIdx g) (broadcastInDim S500000x1 ![] bcast_S_S500000x1 (constantI S_ 32 0#32)))
        (cmpi .sle (rowIdx g)
          (broadcastInDim S500000x1 ![0, 1] bcast_S1x1_S500000x1_0_1
            (broadcastInDim S1x1 ![1] bcast_S1_S1x1_1 (constantI S1 32 49999#32)))))
      (constantI S_ 1 1#1) reducesTo_S500000x1_S500000_d1 h_S_)

/-- The rows of imp picked by the index table, a row whose index is out of range filled with the not-a-number word. -/
def taken (imp : FVec F S50000x128 .f32) (g : IVec S500000 32) : FVec F S500000x128 .f32 :=
  select (inRange g) (gathered imp g)
    (broadcastInDim S500000x128 ![] bcast_S_S500000x128 (constant S_ .f32 0x7FC00000#32))

end Cert.Shared

end
-- ==== Proof.KernelHost.lean ====
import proofs.«163152_j90013924590246_1_alg».proof.Proof.Gen.KernelIdeal.Frame
import proofs.«163152_j90013924590246_1_alg».proof.Proof.Shared

/-!
  What the kernel program's two regions find in their operand arrays, as functions of the launch memory.

  Before region 0 the program runs six stretches of host operations. Each stretch is read here over an ARBITRARY
  assignment of contents to the buffers: the buffer a stretch computes is the stretch's operations applied to the
  contents of the buffers it reads, and a buffer it does not write keeps its contents. Chaining the stretches from the
  launch memory gives each operand array of region 0; region 1 is entered from region 0's exit contents, and none of
  its operand arrays is an array of region 0, so they hold what the host stretches left there.
-/

set_option maxRecDepth 16384

noncomputable section

namespace Cert.KernelRun

open Idealize.ShloMosaic Idealize.ShloMosaic.TcCoe Idealize.ShloMosaic.Tactic
open Idealize.ShloMosaic.StableHlo (after)
open Cert.KernelIdeal Cert.KernelIdeal.Gen

variable {F : FTy → Type} [FloatOps F]

/-- A buffer that no operation of the stretch in the goal writes keeps its contents: the stretch's operations are
    listed, each writes one buffer, and that buffer is another reference. -/
macro "keeps" : tactic =>
  `(tactic| (
    refine StableHlo.after_of_forall_not_mem _ _ (List.forall_iff_forall_mem.mp ?_)
    simp only [hostOps0, hostOps0_1, hostOps0_2, hostOps0_3, hostOps0_4, hostOps0_5, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-! ## Each stretch over arbitrary contents -/

section Stretches
variable (V : Valuation τ sig (Elt F))

/-- The first stretch forms the boundary indicator of the ids. -/
theorem s0_v5 : after hostOps0 V (Proc.devRef .tc main_v5) = Cert.Shared.boundary (V (Proc.devRef .tc main_arg6)) := by
  unfold Cert.Shared.boundary
  after_results
  first | done | rfl

-- the running sum is a fold over a window of every position: it is carried whole, never opened
attribute [local irreducible] Host.reduceWindow in
/-- The second stretch is the running sum of what it finds in the indicator's buffer. -/
theorem s1_v6 : after hostOps0_1 V (Proc.devRef .tc main_v6)
    = Host.reduceWindow IntOp.addi ![500000] ![1] ![499999] ![0] (V (Proc.devRef .tc main_v5))
        (broadcastInDim S_ ![] bcast_S_S_ (constantI S_ 32 0#32)) reduceWindows_S500000_S500000_w500000s1p499999_0 h_S_ := by
  after_results
  rfl

-- the scattered sums and the quotient are carried whole, never opened
attribute [local irreducible] Host.scatterAdd Host.divf in
set_option maxHeartbeats 2000000 in
/-- The third and fourth stretches form the per-group means, kept below the last group index and replaced by the
    rows of the second argument elsewhere. -/
theorem s23_v25 : after hostOps0_3 (after hostOps0_2 V) (Proc.devRef .tc main_v25)
    = Cert.Shared.impSecond (V (Proc.devRef .tc main_arg0)) (V (Proc.devRef .tc main_arg1)) (V (Proc.devRef .tc main_v6)) := by
  unfold Cert.Shared.impSecond
  after_results_simp
  rfl

-- the row gather and the reduction of the range test along a row are carried whole, never opened
attribute [local irreducible] Host.reduce Host.gather in
set_option maxHeartbeats 2000000 in
/-- The fifth stretch picks the rows of the second argument by the group index, a row out of range filled. -/
theorem s4_v26 : after hostOps0_4 V (Proc.devRef .tc main_v26)
    = Cert.Shared.taken (V (Proc.devRef .tc main_arg1)) (V (Proc.devRef .tc main_v6)) := by
  unfold Cert.Shared.taken Cert.Shared.inRange Cert.Shared.gathered Cert.Shared.rowIdx
  after_results_simp
  rfl

/-- The sixth stretch cuts each weight matrix into its two column halves, transposes each, and reshapes each bias
    to one row. -/
theorem s5_v28 : after hostOps0_5 V (Proc.devRef .tc main_v28)
    = transpose S128x128 [1, 0] (extractStridedSlice S128x128 ![0, 0] (V (Proc.devRef .tc main_arg2)) slices_S128x256_S128x128_0_0) transposes_S128x128_S128x128_1_0 := by
  after_results
  first | done | rfl
theorem s5_v30 : after hostOps0_5 V (Proc.devRef .tc main_v30)
    = transpose S128x128 [1, 0] (extractStridedSlice S128x128 ![0, 128] (V (Proc.devRef .tc main_arg2)) slices_S128x256_S128x128_0_128) transposes_S128x128_S128x128_1_0 := by
  after_results
  first | done | rfl
theorem s5_v32 : after hostOps0_5 V (Proc.devRef .tc main_v32)
    = transpose S128x128 [1, 0] (extractStridedSlice S128x128 ![0, 0] (V (Proc.devRef .tc main_arg4)) slices_S128x256_S128x128_0_0) transposes_S128x128_S128x128_1_0 := by
  after_results
  first | done | rfl
theorem s5_v34 : after hostOps0_5 V (Proc.devRef .tc main_v34)
    = transpose S128x128 [1, 0] (extractStridedSlice S128x128 ![0, 128] (V (Proc.devRef .tc main_arg4)) slices_S128x256_S128x128_0_128) transposes_S128x128_S128x128_1_0 := by
  after_results
  first | done | rfl
theorem s5_v35 : after hostOps0_5 V (Proc.devRef .tc main_v35)
    = shapeCast S1x128 (V (Proc.devRef .tc main_arg3)) shapeCasts_S128_S1x128 := by
  after_results
  first | done | rfl
theorem s5_v36 : after hostOps0_5 V (Proc.devRef .tc main_v36)
    = shapeCast S1x128 (V (Proc.devRef .tc main_arg5)) shapeCasts_S128_S1x128 := by
  after_results
  first | done | rfl

end Stretches

/-! ## The stretches chained from the launch memory -/

section Chain
variable (m : (ℓ : Loc nD τ sig) → Buf (Elt F) ℓ) (ρ : Dev nD → PrngReg) (c : Dev nD)

/-! An argument array is written by no stretch: at every boundary it holds its launch contents. -/

theorem W1_arg0 : W1 m ρ c (Proc.devRef .tc main_arg0) = m ((c : Thread nD τ).loc main_arg0) :=
  (by keeps : W1 m ρ c (Proc.devRef .tc main_arg0) = W0 m ρ c (Proc.devRef .tc main_arg0))
theorem W2_arg0 : W2 m ρ c (Proc.devRef .tc main_arg0) = m ((c : Thread nD τ).loc main_arg0) :=
  (by keeps : W2 m ρ c (Proc.devRef .tc main_arg0) = W1 m ρ c (Proc.devRef .tc main_arg0)).trans (W1_arg0 m ρ c)
theorem W3_arg0 : W3 m ρ c (Proc.devRef .tc main_arg0) = m ((c : Thread nD τ).loc main_arg0) :=
  (by keeps : W3 m ρ c (Proc.devRef .tc main_arg0) = W2 m ρ c (Proc.devRef .tc main_arg0)).trans (W2_arg0 m ρ c)
theorem W4_arg0 : W4 m ρ c (Proc.devRef .tc main_arg0) = m ((c : Thread nD τ).loc main_arg0) :=
  (by keeps : W4 m ρ c (Proc.devRef .tc main_arg0) = W3 m ρ c (Proc.devRef .tc main_arg0)).trans (W3_arg0 m ρ c)
theorem W5_arg0 : W5 m ρ c (Proc.devRef .tc main_arg0) = m ((c : Thread nD τ).loc main_arg0) :=
  (by keeps : W5 m ρ c (Proc.devRef .tc main_arg0) = W4 m ρ c (Proc.devRef .tc main_arg0)).trans (W4_arg0 m ρ c)
theorem W6_arg0 : W6 m ρ c (Proc.devRef .tc main_arg0) = m ((c : Thread nD τ).loc main_arg0) :=
  (by keeps : W6 m ρ c (Proc.devRef .tc main_arg0) = W5 m ρ c (Proc.devRef .tc main_arg0)).trans (W5_arg0 m ρ c)

theorem W1_arg1 : W1 m ρ c (Proc.devRef .tc main_arg1) = m ((c : Thread nD τ).loc main_arg1) :=
  (by keeps : W1 m ρ c (Proc.devRef .tc main_arg1) = W0 m ρ c (Proc.devRef .tc main_arg1))
theorem W2_arg1 : W2 m ρ c (Proc.devRef .tc main_arg1) = m ((c : Thread nD τ).loc main_arg1) :=
  (by keeps : W2 m ρ c (Proc.devRef .tc main_arg1) = W1 m ρ c (Proc.devRef .tc main_arg1)).trans (W1_arg1 m ρ c)
theorem W3_arg1 : W3 m ρ c (Proc.devRef .tc main_arg1) = m ((c : Thread nD τ).loc main_arg1) :=
  (by keeps : W3 m ρ c (Proc.devRef .tc main_arg1) = W2 m ρ c (Proc.devRef .tc main_arg1)).trans (W2_arg1 m ρ c)
theorem W4_arg1 : W4 m ρ c (Proc.devRef .tc main_arg1) = m ((c : Thread nD τ).loc main_arg1) :=
  (by keeps : W4 m ρ c (Proc.devRef .tc main_arg1) = W3 m ρ c (Proc.devRef .tc main_arg1)).trans (W3_arg1 m ρ c)
theorem W5_arg1 : W5 m ρ c (Proc.devRef .tc main_arg1) = m ((c : Thread nD τ).loc main_arg1) :=
  (by keeps : W5 m ρ c (Proc.devRef .tc main_arg1) = W4 m ρ c (Proc.devRef .tc main_arg1)).trans (W4_arg1 m ρ c)
theorem W6_arg1 : W6 m ρ c (Proc.devRef .tc main_arg1) = m ((c : Thread nD τ).loc main_arg1) :=
  (by keeps : W6 m ρ c (Proc.devRef .tc main_arg1) = W5 m ρ c (Proc.devRef .tc main_arg1)).trans (W5_arg1 m ρ c)

theorem W1_arg2 : W1 m ρ c (Proc.devRef .tc main_arg2) = m ((c : Thread nD τ).loc main_arg2) :=
  (by keeps : W1 m ρ c (Proc.devRef .tc main_arg2) = W0 m ρ c (Proc.devRef .tc main_arg2))
theorem W2_arg2 : W2 m ρ c (Proc.devRef .tc main_arg2) = m ((c : Thread nD τ).loc main_arg2) :=
  (by keeps : W2 m ρ c (Proc.devRef .tc main_arg2) = W1 m ρ c (Proc.devRef .tc main_arg2)).trans (W1_arg2 m ρ c)
theorem W3_arg2 : W3 m ρ c (Proc.devRef .tc main_arg2) = m ((c : Thread nD τ).loc main_arg2) :=
  (by keeps : W3 m ρ c (Proc.devRef .tc main_arg2) = W2 m ρ c (Proc.devRef .tc main_arg2)).trans (W2_arg2 m ρ c)
theorem W4_arg2 : W4 m ρ c (Proc.devRef .tc main_arg2) = m ((c : Thread nD τ).loc main_arg2) :=
  (by keeps : W4 m ρ c (Proc.devRef .tc main_arg2) = W3 m ρ c (Proc.devRef .tc main_arg2)).trans (W3_arg2 m ρ c)
theorem W5_arg2 : W5 m ρ c (Proc.devRef .tc main_arg2) = m ((c : Thread nD τ).loc main_arg2) :=
  (by keeps : W5 m ρ c (Proc.devRef .tc main_arg2) = W4 m ρ c (Proc.devRef .tc main_arg2)).trans (W4_arg2 m ρ c)

theorem W1_arg3 : W1 m ρ c (Proc.devRef .tc main_arg3) = m ((c : Thread nD τ).loc main_arg3) :=
  (by keeps : W1 m ρ c (Proc.devRef .tc main_arg3) = W0 m ρ c (Proc.devRef .tc main_arg3))
theorem W2_arg3 : W2 m ρ c (Proc.devRef .tc main_arg3) = m ((c : Thread nD τ).loc main_arg3) :=
  (by keeps : W2 m ρ c (Proc.devRef .tc main_arg3) = W1 m ρ c (Proc.devRef .tc main_arg3)).trans (W1_arg3 m ρ c)
theorem W3_arg3 : W3 m ρ c (Proc.devRef .tc main_arg3) = m ((c : Thread nD τ).loc main_arg3) :=
  (by keeps : W3 m ρ c (Proc.devRef .tc main_arg3) = W2 m ρ c (Proc.devRef .tc main_arg3)).trans (W2_arg3 m ρ c)
theorem W4_arg3 : W4 m ρ c (Proc.devRef .tc main_arg3) = m ((c : Thread nD τ).loc main_arg3) :=
  (by keeps : W4 m ρ c (Proc.devRef .tc main_arg3) = W3 m ρ c (Proc.devRef .tc main_arg3)).trans (W3_arg3 m ρ c)
theorem W5_arg3 : W5 m ρ c (Proc.devRef .tc main_arg3) = m ((c : Thread nD τ).loc main_arg3) :=
  (by keeps : W5 m ρ c (Proc.devRef .tc main_arg3) = W4 m ρ c (Proc.devRef .tc main_arg3)).trans (W4_arg3 m ρ c)

theorem W1_arg4 : W1 m ρ c (Proc.devRef .tc main_arg4) = m ((c : Thread nD τ).loc main_arg4) :=
  (by keeps : W1 m ρ c (Proc.devRef .tc main_arg4) = W0 m ρ c (Proc.devRef .tc main_arg4))
theorem W2_arg4 : W2 m ρ c (Proc.devRef .tc main_arg4) = m ((c : Thread nD τ).loc main_arg4) :=
  (by keeps : W2 m ρ c (Proc.devRef .tc main_arg4) = W1 m ρ c (Proc.devRef .tc main_arg4)).trans (W1_arg4 m ρ c)
theorem W3_arg4 : W3 m ρ c (Proc.devRef .tc main_arg4) = m ((c : Thread nD τ).loc main_arg4) :=
  (by keeps : W3 m ρ c (Proc.devRef .tc main_arg4) = W2 m ρ c (Proc.devRef .tc main_arg4)).trans (W2_arg4 m ρ c)
theorem W4_arg4 : W4 m ρ c (Proc.devRef .tc main_arg4) = m ((c : Thread nD τ).loc main_arg4) :=
  (by keeps : W4 m ρ c (Proc.devRef .tc main_arg4) = W3 m ρ c (Proc.devRef .tc main_arg4)).trans (W3_arg4 m ρ c)
theorem W5_arg4 : W5 m ρ c (Proc.devRef .tc main_arg4) = m ((c : Thread nD τ).loc main_arg4) :=
  (by keeps : W5 m ρ c (Proc.devRef .tc main_arg4) = W4 m ρ c (Proc.devRef .tc main_arg4)).trans (W4_arg4 m ρ c)

theorem W1_arg5 : W1 m ρ c (Proc.devRef .tc main_arg5) = m ((c : Thread nD τ).loc main_arg5) :=
  (by keeps : W1 m ρ c (Proc.devRef .tc main_arg5) = W0 m ρ c (Proc.devRef .tc main_arg5))
theorem W2_arg5 : W2 m ρ c (Proc.devRef .tc main_arg5) = m ((c : Thread nD τ).loc main_arg5) :=
  (by keeps : W2 m ρ c (Proc.devRef .tc main_arg5) = W1 m ρ c (Proc.devRef .tc main_arg5)).trans (W1_arg5 m ρ c)
theorem W3_arg5 : W3 m ρ c (Proc.devRef .tc main_arg5) = m ((c : Thread nD τ).loc main_arg5) :=
  (by keeps : W3 m ρ c (Proc.devRef .tc main_arg5) = W2 m ρ c (Proc.devRef .tc main_arg5)).trans (W2_arg5 m ρ c)
theorem W4_arg5 : W4 m ρ c (Proc.devRef .tc main_arg5) = m ((c : Thread nD τ).loc main_arg5) :=
  (by keeps : W4 m ρ c (Proc.devRef .tc main_arg5) = W3 m ρ c (Proc.devRef .tc main_arg5)).trans (W3_arg5 m ρ c)
theorem W5_arg5 : W5 m ρ c (Proc.devRef .tc main_arg5) = m ((c : Thread nD τ).loc main_arg5) :=
  (by keeps : W5 m ρ c (Proc.devRef .tc main_arg5) = W4 m ρ c (Proc.devRef .tc main_arg5)).trans (W4_arg5 m ρ c)

/-! The group index: formed by the first two stretches from the ids, then written by no later stretch. -/

theorem W1_v5 : W1 m ρ c (Proc.devRef .tc main_v5) = Cert.Shared.boundary (m ((c : Thread nD τ).loc main_arg6)) :=
  s0_v5 (W0 m ρ c)
theorem W2_v6 : W2 m ρ c (Proc.devRef .tc main_v6) = Cert.Shared.gid (m ((c : Thread nD τ).loc main_arg6)) := by
  unfold Cert.Shared.gid
  rw [← W1_v5 m ρ c]
  exact s1_v6 (W1 m ρ c)
theorem W3_v6 : W3 m ρ c (Proc.devRef .tc main_v6) = Cert.Shared.gid (m ((c : Thread nD τ).loc main_arg6)) :=
  (by keeps : W3 m ρ c (Proc.devRef .tc main_v6) = W2 m ρ c (Proc.devRef .tc main_v6)).trans (W2_v6 m ρ c)
theorem W4_v6 : W4 m ρ c (Proc.devRef .tc main_v6) = Cert.Shared.gid (m ((c : Thread nD τ).loc main_arg6)) :=
  (by keeps : W4 m ρ c (Proc.devRef .tc main_v6) = W3 m ρ c (Proc.devRef .tc main_v6)).trans (W3_v6 m ρ c)

/-! ## What region 0 finds in its five input arrays -/

theorem V6_x : V6 m ρ c main_arg0 = m ((c.tc : Thread nD τ).loc main_arg0) := W6_arg0 m ρ c

theorem V6_g : V6 m ρ c main_v26
    = Cert.Shared.taken (m ((c.tc : Thread nD τ).loc main_arg1)) (Cert.Shared.gid (m ((c.tc : Thread nD τ).loc main_arg6))) :=
  calc V6 m ρ c main_v26
    _ = W5 m ρ c (Proc.devRef .tc main_v26) := by keeps
    _ = Cert.Shared.taken (W4 m ρ c (Proc.devRef .tc main_arg1)) (W4 m ρ c (Proc.devRef .tc main_v6)) := s4_v26 (W4 m ρ c)
    _ = _ := by rw [W4_arg1 m ρ c, W4_v6 m ρ c]

theorem V6_wa : V6 m ρ c main_v28
    = transpose S128x128 [1, 0] (extractStridedSlice S128x128 ![0, 0] (m ((c.tc : Thread nD τ).loc main_arg2)) slices_S128x256_S128x128_0_0) transposes_S128x128_S128x128_1_0 :=
  (s5_v28 (W5 m ρ c)).trans (by rw [W5_arg2 m ρ c])
theorem V6_wb : V6 m ρ c main_v30
    = transpose S128x128 [1, 0] (extractStridedSlice S128x128 ![0, 128] (m ((c.tc : Thread nD τ).loc main_arg2)) slices_S128x256_S128x128_0_128) transposes_S128x128_S128x128_1_0 :=
  (s5_v30 (W5 m ρ c)).trans (by rw [W5_arg2 m ρ c])
theorem V6_b : V6 m ρ c main_v35 = shapeCast S1x128 (m ((c.tc : Thread nD τ).loc main_arg3)) shapeCasts_S128_S1x128 :=
  (s5_v35 (W5 m ρ c)).trans (by rw [W5_arg3 m ρ c])

/-! ## What region 1 finds in its five input arrays

Region 1 is entered from region 0's exit contents; none of its five input arrays is one of region 0's six arrays, so
each holds what it held when region 0 was entered. -/

theorem V7_x : V7 m ρ c main_arg1 = m ((c.tc : Thread nD τ).loc main_arg1) :=
  (W7_of_ne m ρ c main_arg1 (by decide)).trans (W6_arg1 m ρ c)

theorem V7_g : V7 m ρ c main_v25
    = Cert.Shared.impSecond (m ((c.tc : Thread nD τ).loc main_arg0)) (m ((c.tc : Thread nD τ).loc main_arg1))
        (Cert.Shared.gid (m ((c.tc : Thread nD τ).loc main_arg6))) :=
  calc V7 m ρ c main_v25
    _ = W6 m ρ c (Proc.devRef .tc main_v25) := W7_of_ne m ρ c main_v25 (by decide)
    _ = W5 m ρ c (Proc.devRef .tc main_v25) := by keeps
    _ = W4 m ρ c (Proc.devRef .tc main_v25) := by keeps
    _ = Cert.Shared.impSecond (W2 m ρ c (Proc.devRef .tc main_arg0)) (W2 m ρ c (Proc.devRef .tc main_arg1))
          (W2 m ρ c (Proc.devRef .tc main_v6)) := s23_v25 (W2 m ρ c)
    _ = _ := by rw [W2_arg0 m ρ c, W2_arg1 m ρ c, W2_v6 m ρ c]

theorem V7_wa : V7 m ρ c main_v32
    = transpose S128x128 [1, 0] (extractStridedSlice S128x128 ![0, 0] (m ((c.tc : Thread nD τ).loc main_arg4)) slices_S128x256_S128x128_0_0) transposes_S128x128_S128x128_1_0 :=
  (W7_of_ne m ρ c main_v32 (by decide)).trans ((s5_v32 (W5 m ρ c)).trans (by rw [W5_arg4 m ρ c]))
theorem V7_wb : V7 m ρ c main_v34
    = transpose S128x128 [1, 0] (extractStridedSlice S128x128 ![0, 128] (m ((c.tc : Thread nD τ).loc main_arg4)) slices_S128x256_S128x128_0_128) transposes_S128x128_S128x128_1_0 :=
  (W7_of_ne m ρ c main_v34 (by decide)).trans ((s5_v34 (W5 m ρ c)).trans (by rw [W5_arg4 m ρ c]))
theorem V7_b : V7 m ρ c main_v36 = shapeCast S1x128 (m ((c.tc : Thread nD τ).loc main_arg5)) shapeCasts_S128_S1x128 :=
  (W7_of_ne m ρ c main_v36 (by decide)).trans ((s5_v36 (W5 m ρ c)).trans (by rw [W5_arg5 m ρ c]))

end Chain

end Cert.KernelRun

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.KernelPayload.lean ====
/-
  The body of the fused linear kernel, read at one element.

  The body receives five blocks: two row blocks a, g of 5000 rows and 128 columns, two square weight blocks wa, wb of
  128 by 128, and one bias row b of 128 entries. It narrows the four matrix operands to the short float format, forms the
  two products a · wa and g · wb on the matrix unit, each into a zero accumulator, adds them, and adds the bias row
  repeated over the 5000 rows. At the ideal values the narrowing and the same-shape casts are the identity and the
  product into the zero accumulator is the plain sum of products, so the element at row p and column q is
      (∑ k, a(p, k) · wa(k, q)  +  ∑ k, g(p, k) · wb(k, q))  +  b(0, q),
  with k over the 128 contracted positions. Both launches of the kernel run this same body.
-/
import proofs.«163152_j90013924590246_1_alg».proof.Proof.Gen.KernelIdeal.Skeleton
import proofs.«163152_j90013924590246_1_alg».proof.Proof.LibMatmul
import Idealize.ShloMosaic.Lib.ValueIdx
import Idealize.ShloMosaic.Lib.ValueLayout
import Idealize.ShloMosaic.Lib.Pipeline.Value

open scoped BigOperators

noncomputable section

namespace Cert.KernelBlocks

open Idealize.ShloMosaic Idealize.ShloMosaic.ValueIdx
open Cert.KernelIdeal Cert.KernelIdeal.Gen

/-- The body's contraction is the plain one: axis 1 of the left operand against axis 0 of the right, no batch axis. -/
theorem bodyDot_eq_plain : dot_S5000x128_S128x128_S5000x128_1_0_0_1_n_n = DotDims.plain 5000 128 128 := rfl

/-- One product of the body at (p, q): narrowed operands into the zero accumulator give the sum of products. -/
theorem bodyProduct_apply (a : Vec Ideal S5000x128 .f32) (w : Vec Ideal S128x128 .f32) (p : Fin 5000) (q : Fin 128) :
    matmul (F := Ideal) dot_S5000x128_S128x128_S5000x128_1_0_0_1_n_n none
        (truncf .bf16 a bitsLt_bf16_f32 : FVec Ideal S5000x128 .bf16) (truncf .bf16 w bitsLt_bf16_f32 : FVec Ideal S128x128 .bf16)
        (constant (F := Ideal) S5000x128 .f32 0x00000000#32) (ix2 p q)
      = ∑ k : Fin 128, a (ix2 p k) * w (ix2 k q) :=
  Cert.MatOps.matmul_plain_zero_apply (M := 5000) (K := 128) (N := 128) none
    (truncf .bf16 a bitsLt_bf16_f32 : FVec Ideal S5000x128 .bf16) (truncf .bf16 w bitsLt_bf16_f32 : FVec Ideal S128x128 .bf16) p q

/-- The first launch's body at (p, q). -/
theorem pay0_apply (a g : Vec Ideal S5000x128 .f32) (wa wb : Vec Ideal S128x128 .f32) (b : Vec Ideal S1x128 .f32)
    (p : Fin 5000) (q : Fin 128) :
    k0_pay1 (F := Ideal) a g wa wb b (ix2 p q)
      = ((∑ k : Fin 128, a (ix2 p k) * wa (ix2 k q)) + (∑ k : Fin 128, g (ix2 p k) * wb (ix2 k q))) + b (ix2 (0 : Fin 1) q) := by
  unfold k0_pay1
  simp only [shapeCast_self]
  refine congrArg₂ (· + ·) (congrArg₂ (· + ·) (bodyProduct_apply a wa p q) (bodyProduct_apply g wb p q)) ?_
  exact broadcastTo_1b_ab_apply b broadcasts_S1x128_S5000x128 p q

/-- The second launch's body at (p, q): the same arithmetic. -/
theorem pay1_apply (a g : Vec Ideal S5000x128 .f32) (wa wb : Vec Ideal S128x128 .f32) (b : Vec Ideal S1x128 .f32)
    (p : Fin 5000) (q : Fin 128) :
    k1_pay1 (F := Ideal) a g wa wb b (ix2 p q)
      = ((∑ k : Fin 128, a (ix2 p k) * wa (ix2 k q)) + (∑ k : Fin 128, g (ix2 p k) * wb (ix2 k q))) + b (ix2 (0 : Fin 1) q) := by
  unfold k1_pay1
  simp only [shapeCast_self]
  refine congrArg₂ (· + ·) (congrArg₂ (· + ·) (bodyProduct_apply a wa p q) (bodyProduct_apply g wb p q)) ?_
  exact broadcastTo_1b_ab_apply b broadcasts_S1x128_S5000x128 p q

end Cert.KernelBlocks

end
-- ==== Proof.KernelBlocks.lean ====
/-
  From the blocks the fused linear kernel writes to the whole result array, at the ideal values, for any contents of the
  buffers when a launch is entered.

  A launch walks a one-axis grid of row blocks of 5000 rows. At block t it stages rows 5000·t … 5000·t + 4999 of the two
  row operands, the two whole 128 by 128 weight arrays and the whole bias row, runs the body on them, and writes the body's
  5000 by 128 result back to the same rows of the result array. The body's element at (p, q) is
      (∑ k, a(p, k) · wa(k, q)  +  ∑ k, g(p, k) · wb(k, q))  +  b(0, q)
  of its staged blocks, and element (p, k) of a staged row block is element (5000·t + p, k) of its array, so what block t
  writes back is rows 5000·t … of ONE function of the whole arrays: at (i, j)
      (∑ k, A(i, k) · Wa(k, j)  +  ∑ k, G(i, k) · Wb(k, j))  +  B(0, j).
  Row i lies in block i / 5000, so the blocks cover the result array and it ends holding that function. The first launch
  has 100 blocks over 500000 rows, the second 10 blocks over 50000 rows; the argument is the same.
-/
import proofs.«163152_j90013924590246_1_alg».proof.Proof.Gen.KernelIdeal.Frame
import proofs.«163152_j90013924590246_1_alg».proof.Proof.KernelPayload
import Idealize.ShloMosaic.Lib.Pipeline.Value

open scoped BigOperators

noncomputable section

namespace Cert.KernelBlocks

open Cert.KernelIdeal Cert.KernelIdeal.Gen Idealize.ShloMosaic Idealize.ShloMosaic.TcCoe Idealize.SL.Sem
open Idealize.ShloMosaic.ValueIdx
open Idealize.ShloMosaic.Pipeline (Dat)

/-- The two row operands against their weights, plus the bias row, as one function of whole arrays of M rows. -/
def fusedLinear (M : Nat) (A G : (⟨2, ![M, 128]⟩ : Shape).Idx → EReal) (Wa Wb : S128x128.Idx → EReal) (B : S1x128.Idx → EReal) :
    (⟨2, ![M, 128]⟩ : Shape).Idx → EReal :=
  fun idx => ((∑ k : Fin 128, A (ix2 (idx 0 : Fin M) k) * Wa (ix2 k (idx 1 : Fin 128)))
      + (∑ k : Fin 128, G (ix2 (idx 0 : Fin M) k) * Wb (ix2 k (idx 1 : Fin 128))))
    + B (ix2 (0 : Fin 1) (idx 1 : Fin 128))

theorem fusedLinear_apply (M : Nat) (A G : (⟨2, ![M, 128]⟩ : Shape).Idx → EReal) (Wa Wb : S128x128.Idx → EReal) (B : S1x128.Idx → EReal)
    (i : Fin M) (j : Fin 128) :
    fusedLinear M A G Wa Wb B (ix2 i j)
      = ((∑ k : Fin 128, A (ix2 i k) * Wa (ix2 k j)) + (∑ k : Fin 128, G (ix2 i k) * Wb (ix2 k j))) + B (ix2 (0 : Fin 1) j) := rfl

theorem zeroOffsets : (![0, 0] : Fin 2 → Nat) = fun _ => 0 := funext fun a => by fin_cases a <;> rfl

variable (V : (c : Dev nD) → (b : Ref sig .tc) → Buf (Elt Ideal) ((c : Thread nD τ).loc b))

/-! ## The first launch: 100 row blocks over 500000 rows -/

/-- The first launch's result as one function of the arrays it finds. -/
abbrev xOut (c : Dev nD) : S500000x128.Idx → Elt Ideal .f32 :=
  fusedLinear 500000 (V c main_arg0) (V c main_v26) (V c main_v28) (V c main_v30) (V c main_v35)

/-- The block index of every window at every point: the row windows move with the point, the weights and the bias stay. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Element (p, k) of the first row operand's block at point t is element (5000·t + p, k) of the array. -/
theorem rowBlock0_0 (c : Dev nD) (t : Fin cfg0.N) (p : Fin 5000) (k : Fin 128) (i : Fin 500000) (hi : i.val = t.val * 5000 + p.val) :
    (iblk0 (F := Ideal) V c 0 t : Vec Ideal S5000x128 .f32) (ix2 p k) = (V c main_arg0 : Vec Ideal S500000x128 .f32) (ix2 i k) := by
  obtain ⟨e0, e1, -⟩ := blockIndex0 t
  unfold iblk0
  rw [View.read_apply]
  show V c main_arg0 _ = V c main_arg0 _
  refine congrArg _ (funext fun a => Fin.ext ?_)
  match a with
  | ⟨0, _⟩ => show win0_0.index t (0 : Fin 2) * 5000 + 1 * p.val = i.val; omega
  | ⟨1, _⟩ => show win0_0.index t (1 : Fin 2) * 128 + 1 * k.val = k.val; omega

/-- The same for the second row operand. -/
theorem rowBlock0_1 (c : Dev nD) (t : Fin cfg0.N) (p : Fin 5000) (k : Fin 128) (i : Fin 500000) (hi : i.val = t.val * 5000 + p.val) :
    (iblk0 (F := Ideal) V c 1 t : Vec Ideal S5000x128 .f32) (ix2 p k) = (V c main_v26 : Vec Ideal S500000x128 .f32) (ix2 i k) := by
  obtain ⟨-, -, e0, e1, -⟩ := blockIndex0 t
  unfold iblk0
  rw [View.read_apply]
  show V c main_v26 _ = V c main_v26 _
  refine congrArg _ (funext fun a => Fin.ext ?_)
  match a with
  | ⟨0, _⟩ => show win0_1.index t (0 : Fin 2) * 5000 + 1 * p.val = i.val; omega
  | ⟨1, _⟩ => show win0_1.index t (1 : Fin 2) * 128 + 1 * k.val = k.val; omega

/-- The first weight's block at any point is the whole array. -/
theorem weightBlock0_2 (c : Dev nD) (t : Fin cfg0.N) (k q : Fin 128) :
    (iblk0 (F := Ideal) V c 2 t : Vec Ideal S128x128 .f32) (ix2 k q) = (V c main_v28 : Vec Ideal S128x128 .f32) (ix2 k q) := by
  obtain ⟨-, -, -, -, e0, e1, -⟩ := blockIndex0 t
  unfold iblk0
  rw [View.read_apply]
  show V c main_v28 _ = V c main_v28 _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- The second weight's block at any point is the whole array. -/
theorem weightBlock0_3 (c : Dev nD) (t : Fin cfg0.N) (k q : Fin 128) :
    (iblk0 (F := Ideal) V c 3 t : Vec Ideal S128x128 .f32) (ix2 k q) = (V c main_v30 : Vec Ideal S128x128 .f32) (ix2 k q) := by
  obtain ⟨-, -, -, -, -, -, e0, e1, -⟩ := blockIndex0 t
  unfold iblk0
  rw [View.read_apply]
  show V c main_v30 _ = V c main_v30 _
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- The bias row's block at any point is the whole row. -/
theorem biasBlock0_4 (c : Dev nD) (t : Fin cfg0.N) (q : Fin 128) :
    (iblk0 (F := Ideal) V c 4 t : Vec Ideal S1x128 .f32) (ix2 (0 : Fin 1) q) = (V c main_v35 : Vec Ideal S1x128 .f32) (ix2 (0 : Fin 1) q) := by
  obtain ⟨-, -, -, -, -, -, -, -, e0, e1, -⟩ := blockIndex0 t
  unfold iblk0
  rw [View.read_apply]
  show V c main_v35 _ = V c main_v35 _
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Element (p, q) of the result's block at point t sits at (5000·t + p, q) of the result array. -/
theorem outBlock0_5 (t : Fin cfg0.N) (p : Fin 5000) (q : Fin 128) (i : Fin 500000) (hi : i.val = t.val * 5000 + p.val) :
    ((cfg0.win 5).blk t).view.emb (ix2 p q) = (ix2 i q : S500000x128.Idx) := by
  obtain ⟨-, -, -, -, -, -, -, -, -, -, e0, e1⟩ := blockIndex0 t
  refine funext fun a => Fin.ext ?_
  match a with
  | ⟨0, _⟩ => show win0_5.index t (0 : Fin 2) * 5000 + 1 * p.val = i.val; omega
  | ⟨1, _⟩ => show win0_5.index t (1 : Fin 2) * 128 + 1 * q.val = q.val; omega

/-- What point t writes back is rows 5000·t … of the one function of the whole arrays. -/
theorem flushed0 (c : Dev nD) (t : Fin cfg0.N) :
    (dat0 (F := Ideal) V c).flushed 5 t = ((cfg0.win 5).blk t).view.read (Elt Ideal) (xOut V c) := by
  have hN : cfg0.N = 100 := N_0
  show (cfg0.win 5).cut (grid0.coords t) ((dat0 (F := Ideal) V c).after 5 t) = _
  rw [after0_5]
  unfold out0_5
  rw [View.canon_unit_zero zeroOffsets]
  simp only [View.ld_unit_zero (S := S5000x128) zeroOffsets, View.ld_unit_zero (S := S128x128) zeroOffsets,
    View.ld_unit_zero (S := S1x128) zeroOffsets]
  funext y
  obtain ⟨p, q, rfl⟩ : ∃ (p : Fin 5000) (q : Fin 128), y = ix2 p q := ⟨y 0, y 1, eq_ix2 (n0 := 5000) (n1 := 128) y⟩
  have ht : t.val < 100 := hN ▸ t.isLt
  obtain ⟨i, hi⟩ : ∃ i : Fin 500000, i.val = t.val * 5000 + p.val := ⟨⟨t.val * 5000 + p.val, by have := p.isLt; omega⟩, rfl⟩
  show k0_pay1 (F := Ideal) (iblk0 V c 0 t) (iblk0 V c 1 t) (iblk0 V c 2 t) (iblk0 V c 3 t) (iblk0 V c 4 t) (ix2 p q)
    = xOut V c (((cfg0.win 5).blk t).view.emb (ix2 p q))
  refine (pay0_apply (iblk0 V c 0 t) (iblk0 V c 1 t) (iblk0 V c 2 t) (iblk0 V c 3 t) (iblk0 V c 4 t) p q).trans ?_
  refine Eq.trans ?_ (congrArg (xOut V c) (outBlock0_5 t p q i hi)).symm
  refine Eq.trans ?_ (fusedLinear_apply 500000 (V c main_arg0) (V c main_v26) (V c main_v28) (V c main_v30) (V c main_v35) i q).symm
  refine congrArg₂ (· + ·) (congrArg₂ (· + ·) (Finset.sum_congr rfl fun k _ => ?_) (Finset.sum_congr rfl fun k _ => ?_)) ?_
  · exact congrArg₂ (· * ·) (rowBlock0_0 V c t p k i hi) (weightBlock0_2 V c t k q)
  · exact congrArg₂ (· * ·) (rowBlock0_1 V c t p k i hi) (weightBlock0_3 V c t k q)
  · exact biasBlock0_4 V c t q

/-- An index of the result array is in point t's block iff each coordinate is in the block's range on its axis. -/
theorem mem_outBlock0 (t : Fin cfg0.N) (i : S500000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v37).slice (win0_5.rect t)).set ↔ _
  rw [View.set_slice_whole, Rect.mem_set_unit]
  exact Iff.rfl

/-- Row r lies in block r / 5000: the blocks cover the result array. -/
theorem cover0 (i : S500000x128.Idx) : ∃ t : Fin cfg0.N, (cfg0.win 5).flush t = true ∧ i ∈ ((cfg0.win 5).blk t).view.set := by
  have hN : cfg0.N = 100 := N_0
  have h0 : (i 0).val < 500000 := idx2_lt0 i
  have h1 : (i 1).val < 128 := idx2_lt1 i
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := blockIndex0 t
  refine ⟨t, flush0_5 t, ?_⟩
  rw [mem_outBlock0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The first launch's result array after the run, as a function. -/
theorem final0_fun (c : Dev nD) : (dat0 (F := Ideal) V c).arrAt 5 cfg0.N = xOut V c :=
  (dat0 (F := Ideal) V c).arrAt_eq_of_cover 5 (xOut V c) (fun t _ => flushed0 V c t) cover0

/-- The first launch's result array after the run, element by element, the arrays it finds named. -/
theorem final0 (c : Dev nD) (A G : FVec Ideal S500000x128 .f32) (Wa Wb : FVec Ideal S128x128 .f32) (B : FVec Ideal S1x128 .f32)
    (hA : V c main_arg0 = A) (hG : V c main_v26 = G) (hWa : V c main_v28 = Wa) (hWb : V c main_v30 = Wb) (hB : V c main_v35 = B)
    (i : Fin 500000) (j : Fin 128) :
    (dat0 (F := Ideal) V c).arrAt 5 cfg0.N (ix2 i j)
      = ((∑ k : Fin 128, A (ix2 i k) * Wa (ix2 k j)) + (∑ k : Fin 128, G (ix2 i k) * Wb (ix2 k j))) + B (ix2 (0 : Fin 1) j) := by
  subst hA hG hWa hWb hB
  exact (congrFun (final0_fun V c) (ix2 i j)).trans
    (fusedLinear_apply 500000 (V c main_arg0) (V c main_v26) (V c main_v28) (V c main_v30) (V c main_v35) i j)

/-! ## The second launch: 10 row blocks over 50000 rows -/

/-- The second launch's result as one function of the arrays it finds. -/
abbrev impOut (c : Dev nD) : S50000x128.Idx → Elt Ideal .f32 :=
  fusedLinear 50000 (V c main_arg1) (V c main_v25) (V c main_v32) (V c main_v34) (V c main_v36)

/-- The block index of every window at every point: the row windows move with the point, the weights and the bias stay. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Element (p, k) of the first row operand's block at point t is element (5000·t + p, k) of the array. -/
theorem rowBlock1_0 (c : Dev nD) (t : Fin cfg1.N) (p : Fin 5000) (k : Fin 128) (i : Fin 50000) (hi : i.val = t.val * 5000 + p.val) :
    (iblk1 (F := Ideal) V c 0 t : Vec Ideal S5000x128 .f32) (ix2 p k) = (V c main_arg1 : Vec Ideal S50000x128 .f32) (ix2 i k) := by
  obtain ⟨e0, e1, -⟩ := blockIndex1 t
  unfold iblk1
  rw [View.read_apply]
  show V c main_arg1 _ = V c main_arg1 _
  refine congrArg _ (funext fun a => Fin.ext ?_)
  match a with
  | ⟨0, _⟩ => show win1_0.index t (0 : Fin 2) * 5000 + 1 * p.val = i.val; omega
  | ⟨1, _⟩ => show win1_0.index t (1 : Fin 2) * 128 + 1 * k.val = k.val; omega

/-- The same for the second row operand. -/
theorem rowBlock1_1 (c : Dev nD) (t : Fin cfg1.N) (p : Fin 5000) (k : Fin 128) (i : Fin 50000) (hi : i.val = t.val * 5000 + p.val) :
    (iblk1 (F := Ideal) V c 1 t : Vec Ideal S5000x128 .f32) (ix2 p k) = (V c main_v25 : Vec Ideal S50000x128 .f32) (ix2 i k) := by
  obtain ⟨-, -, e0, e1, -⟩ := blockIndex1 t
  unfold iblk1
  rw [View.read_apply]
  show V c main_v25 _ = V c main_v25 _
  refine congrArg _ (funext fun a => Fin.ext ?_)
  match a with
  | ⟨0, _⟩ => show win1_1.index t (0 : Fin 2) * 5000 + 1 * p.val = i.val; omega
  | ⟨1, _⟩ => show win1_1.index t (1 : Fin 2) * 128 + 1 * k.val = k.val; omega

/-- The first weight's block at any point is the whole array. -/
theorem weightBlock1_2 (c : Dev nD) (t : Fin cfg1.N) (k q : Fin 128) :
    (iblk1 (F := Ideal) V c 2 t : Vec Ideal S128x128 .f32) (ix2 k q) = (V c main_v32 : Vec Ideal S128x128 .f32) (ix2 k q) := by
  obtain ⟨-, -, -, -, e0, e1, -⟩ := blockIndex1 t
  unfold iblk1
  rw [View.read_apply]
  show V c main_v32 _ = V c main_v32 _
  refine congrArg _ (funext fun a => Fin.ext ?_)
  match a with
  | ⟨0, _⟩ => show win1_2.index t (0 : Fin 2) * 128 + 1 * k.val = k.val; omega
  | ⟨1, _⟩ => show win1_2.index t (1 : Fin 2) * 128 + 1 * q.val = q.val; omega

/-- The second weight's block at any point is the whole array. -/
theorem weightBlock1_3 (c : Dev nD) (t : Fin cfg1.N) (k q : Fin 128) :
    (iblk1 (F := Ideal) V c 3 t : Vec Ideal S128x128 .f32) (ix2 k q) = (V c main_v34 : Vec Ideal S128x128 .f32) (ix2 k q) := by
  obtain ⟨-, -, -, -, -, -, e0, e1, -⟩ := blockIndex1 t
  unfold iblk1
  rw [View.read_apply]
  show V c main_v34 _ = V c main_v34 _
  refine congrArg _ (funext fun a => Fin.ext ?_)
  match a with
  | ⟨0, _⟩ => show win1_3.index t (0 : Fin 2) * 128 + 1 * k.val = k.val; omega
  | ⟨1, _⟩ => show win1_3.index t (1 : Fin 2) * 128 + 1 * q.val = q.val; omega

/-- The bias row's block at any point is the whole row. -/
theorem biasBlock1_4 (c : Dev nD) (t : Fin cfg1.N) (q : Fin 128) :
    (iblk1 (F := Ideal) V c 4 t : Vec Ideal S1x128 .f32) (ix2 (0 : Fin 1) q) = (V c main_v36 : Vec Ideal S1x128 .f32) (ix2 (0 : Fin 1) q) := by
  obtain ⟨-, -, -, -, -, -, -, -, e0, e1, -⟩ := blockIndex1 t
  unfold iblk1
  rw [View.read_apply]
  show V c main_v36 _ = V c main_v36 _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- Element (p, q) of the result's block at point t sits at (5000·t + p, q) of the result array. -/
theorem outBlock1_5 (t : Fin cfg1.N) (p : Fin 5000) (q : Fin 128) (i : Fin 50000) (hi : i.val = t.val * 5000 + p.val) :
    ((cfg1.win 5).blk t).view.emb (ix2 p q) = (ix2 i q : S50000x128.Idx) := by
  obtain ⟨-, -, -, -, -, -, -, -, -, -, e0, e1⟩ := blockIndex1 t
  refine funext fun a => Fin.ext ?_
  match a with
  | ⟨0, _⟩ => show win1_5.index t (0 : Fin 2) * 5000 + 1 * p.val = i.val; omega
  | ⟨1, _⟩ => show win1_5.index t (1 : Fin 2) * 128 + 1 * q.val = q.val; omega

/-- What point t writes back is rows 5000·t … of the one function of the whole arrays. -/
theorem flushed1 (c : Dev nD) (t : Fin cfg1.N) :
    (dat1 (F := Ideal) V c).flushed 5 t = ((cfg1.win 5).blk t).view.read (Elt Ideal) (impOut V c) := by
  have hN : cfg1.N = 10 := N_1
  show (cfg1.win 5).cut (grid1.coords t) ((dat1 (F := Ideal) V c).after 5 t) = _
  rw [after1_5]
  unfold out1_5
  rw [View.canon_unit_zero zeroOffsets]
  simp only [View.ld_unit_zero (S := S5000x128) zeroOffsets, View.ld_unit_zero (S := S128x128) zeroOffsets,
    View.ld_unit_zero (S := S1x128) zeroOffsets]
  funext y
  obtain ⟨p, q, rfl⟩ : ∃ (p : Fin 5000) (q : Fin 128), y = ix2 p q := ⟨y 0, y 1, eq_ix2 (n0 := 5000) (n1 := 128) y⟩
  have ht : t.val < 10 := hN ▸ t.isLt
  obtain ⟨i, hi⟩ : ∃ i : Fin 50000, i.val = t.val * 5000 + p.val := ⟨⟨t.val * 5000 + p.val, by have := p.isLt; omega⟩, rfl⟩
  show k1_pay1 (F := Ideal) (iblk1 V c 0 t) (iblk1 V c 1 t) (iblk1 V c 2 t) (iblk1 V c 3 t) (iblk1 V c 4 t) (ix2 p q)
    = impOut V c (((cfg1.win 5).blk t).view.emb (ix2 p q))
  refine (pay1_apply (iblk1 V c 0 t) (iblk1 V c 1 t) (iblk1 V c 2 t) (iblk1 V c 3 t) (iblk1 V c 4 t) p q).trans ?_
  refine Eq.trans ?_ (congrArg (impOut V c) (outBlock1_5 t p q i hi)).symm
  refine Eq.trans ?_ (fusedLinear_apply 50000 (V c main_arg1) (V c main_v25) (V c main_v32) (V c main_v34) (V c main_v36) i q).symm
  refine congrArg₂ (· + ·) (congrArg₂ (· + ·) (Finset.sum_congr rfl fun k _ => ?_) (Finset.sum_congr rfl fun k _ => ?_)) ?_
  · exact congrArg₂ (· * ·) (rowBlock1_0 V c t p k i hi) (weightBlock1_2 V c t k q)
  · exact congrArg₂ (· * ·) (rowBlock1_1 V c t p k i hi) (weightBlock1_3 V c t k q)
  · exact biasBlock1_4 V c t q

/-- An index of the result array is in point t's block iff each coordinate is in the block's range on its axis. -/
theorem mem_outBlock1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v38).slice (win1_5.rect t)).set ↔ _
  rw [View.set_slice_whole, Rect.mem_set_unit]
  exact Iff.rfl

/-- Row r lies in block r / 5000: the blocks cover the result array. -/
theorem cover1 (i : S50000x128.Idx) : ∃ t : Fin cfg1.N, (cfg1.win 5).flush t = true ∧ i ∈ ((cfg1.win 5).blk t).view.set := by
  have hN : cfg1.N = 10 := N_1
  have h0 : (i 0).val < 50000 := idx2_lt0 i
  have h1 : (i 1).val < 128 := idx2_lt1 i
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := blockIndex1 t
  refine ⟨t, flush1_5 t, ?_⟩
  rw [mem_outBlock1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The second launch's result array after the run, as a function. -/
theorem final1_fun (c : Dev nD) : (dat1 (F := Ideal) V c).arrAt 5 cfg1.N = impOut V c :=
  (dat1 (F := Ideal) V c).arrAt_eq_of_cover 5 (impOut V c) (fun t _ => flushed1 V c t) cover1

/-- The second launch's result array after the run, element by element, the arrays it finds named. -/
theorem final1 (c : Dev nD) (A G : FVec Ideal S50000x128 .f32) (Wa Wb : FVec Ideal S128x128 .f32) (B : FVec Ideal S1x128 .f32)
    (hA : V c main_arg1 = A) (hG : V c main_v25 = G) (hWa : V c main_v32 = Wa) (hWb : V c main_v34 = Wb) (hB : V c main_v36 = B)
    (i : Fin 50000) (j : Fin 128) :
    (dat1 (F := Ideal) V c).arrAt 5 cfg1.N (ix2 i j)
      = ((∑ k : Fin 128, A (ix2 i k) * Wa (ix2 k j)) + (∑ k : Fin 128, G (ix2 i k) * Wb (ix2 k j))) + B (ix2 (0 : Fin 1) j) := by
  subst hA hG hWa hWb hB
  exact (congrFun (final1_fun V c) (ix2 i j)).trans
    (fusedLinear_apply 50000 (V c main_arg1) (V c main_v25) (V c main_v32) (V c main_v34) (V c main_v36) i j)

end Cert.KernelBlocks

end
-- ==== Proof.RefOps.lean ====
/-
  The reference program's @main as one straight line of host operations, and its run.

  @main calls two module-local functions: the running sum (three operations: the zero, its rank-zero broadcast,
  the windowed sum) and the selection by a mask (two operations: the mask's broadcast along the rows, the select).
  Each call is the callee's operations over the call's own buffers, so @main is the list below: its own
  operations in order with the callee's operations written out at each call. From any memory with zero
  counters every weakly fair execution terminates, and every buffer ends at the fold of the operations'
  results over the launch contents.
-/
import proofs.«163152_j90013924590246_1_alg».proof.ReferenceIdeal
import Idealize.ShloMosaic.Lib.StableHlo.Run

noncomputable section

namespace Cert.RefRun

open Cert.ReferenceIdeal Cert.ReferenceIdeal.Facts₀ Idealize.ShloMosaic Idealize.ShloMosaic.TcCoe Idealize.SL.Sem
open Idealize.ShloMosaic.StableHlo (seq after run_seq tcRefs launchContents)

variable {F : FTy → Type} [FloatOps F] [Cert.ReferenceIdeal.Facts]

/-- @main's fifty-five operations in order: seven that form the boundary indicator, the running sum's three,
    twenty-two up to the mask, the selection's two, then the index table, the row gather, the two
    concatenations and the two linear layers. -/
abbrev ops : List (HloOp τ sig (Elt F)) :=
  [ StableHlo.nullary main_c (constantI S_ 32 0#32),
    StableHlo.unary main_c main_v0 (broadcastInDim S1 ![] bcast_S_S1 : (⟨S_, .i32⟩ : BufTy).Contents (Elt F) → (⟨S1, .i32⟩ : BufTy).Contents (Elt F)),
    StableHlo.unary main_arg6 main_v1 ((extractStridedSlice S499999 ![1] · slices_S500000_S499999_1) : (⟨S500000, .i32⟩ : BufTy).Contents (Elt F) → (⟨S499999, .i32⟩ : BufTy).Contents (Elt F)),
    StableHlo.unary main_arg6 main_v2 ((extractStridedSlice S499999 ![0] · slices_S500000_S499999_0) : (⟨S500000, .i32⟩ : BufTy).Contents (Elt F) → (⟨S499999, .i32⟩ : BufTy).Contents (Elt F)),
    StableHlo.binary main_v1 main_v2 main_v3 (cmpi .ne : (⟨S499999, .i32⟩ : BufTy).Contents (Elt F) → (⟨S499999, .i32⟩ : BufTy).Contents (Elt F) → (⟨S499999, .i1⟩ : BufTy).Contents (Elt F)),
    StableHlo.unary main_v3 main_v4 ((extui 32 · natLt_1_32) : (⟨S499999, .i1⟩ : BufTy).Contents (Elt F) → (⟨S499999, .i32⟩ : BufTy).Contents (Elt F)),
    StableHlo.binary main_v0 main_v4 main_v5 ((fun a b => concatenate S500000 0 [⟨S1, a⟩, ⟨S499999, b⟩] concatenates_S1_S499999_S500000_d0) : (⟨S1, .i32⟩ : BufTy).Contents (Elt F) → (⟨S499999, .i32⟩ : BufTy).Contents (Elt F) → (⟨S500000, .i32⟩ : BufTy).Contents (Elt F)),
    StableHlo.TRef.nullary main_call0.call0.c (constantI S_ 32 0#32),
    StableHlo.TRef.unary main_call0.call0.c main_call0.call0.v0 (broadcastInDim S_ ![] bcast_S_S_),
    StableHlo.TRef.binary (.of main_v5 : StableHlo.TRef sig ⟨S500000, .i32⟩) main_call0.call0.v0 main_call0.call0.v1 (fun x v => Host.reduceWindow IntOp.addi ![500000] ![1] ![499999] ![0] x v reduceWindows_S500000_S500000_w500000s1p499999_0 h_S_),
    StableHlo.nullary main_cst (constant S_ .f32 0x00000000#32),
    StableHlo.unary main_cst main_v7 (broadcastInDim S50000x128 ![] bcast_S_S50000x128 : (⟨S_, .f32⟩ : BufTy).Contents (Elt F) → (⟨S50000x128, .f32⟩ : BufTy).Contents (Elt F)),
    StableHlo.unary main_v6 main_v8 (broadcastInDim S500000x1 ![0] bcast_S500000_S500000x1_0 : (⟨S500000, .i32⟩ : BufTy).Contents (Elt F) → (⟨S500000x1, .i32⟩ : BufTy).Contents (Elt F)),
    StableHlo.ternary main_v7 main_v8 main_arg0 main_v9 ((fun x i u => Host.scatterAdd scatter_S50000x128_S500000x1_S500000x128_1_0_0_1 x i u) : (⟨S50000x128, .f32⟩ : BufTy).Contents (Elt F) → (⟨S500000x1, .i32⟩ : BufTy).Contents (Elt F) → (⟨S500000x128, .f32⟩ : BufTy).Contents (Elt F) → (⟨S50000x128, .f32⟩ : BufTy).Contents (Elt F)),
    StableHlo.nullary main_cst_0 (constant S_ .f32 0x3F800000#32),
    StableHlo.unary main_cst_0 main_v10 (broadcastInDim S500000 ![] bcast_S_S500000 : (⟨S_, .f32⟩ : BufTy).Contents (Elt F) → (⟨S500000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.unary main_v6 main_v12 (broadcastInDim S500000x1 ![0] bcast_S500000_S500000x1_0 : (⟨S500000, .i32⟩ : BufTy).Contents (Elt F) → (⟨S500000x1, .i32⟩ : BufTy).Contents (Elt F)),
    StableHlo.ternary main_v11 main_v12 main_v10 main_v13 ((fun x i u => Host.scatterAdd scatter_S50000_S500000x1_S500000_n_0_0_1 x i u) : (⟨S50000, .f32⟩ : BufTy).Contents (Elt F) → (⟨S500000x1, .i32⟩ : BufTy).Contents (Elt F) → (⟨S500000, .f32⟩ : BufTy).Contents (Elt F) → (⟨S50000, .f32⟩ : BufTy).Contents (Elt F)),
    StableHlo.nullary main_cst_2 (constant S_ .f32 0x3F800000#32),
    StableHlo.unary main_cst_2 main_v14 (broadcastInDim S50000 ![] bcast_S_S50000 : (⟨S_, .f32⟩ : BufTy).Contents (Elt F) → (⟨S50000, .f32⟩ : BufTy).Contents (Elt F)),
    StableHlo.binary main_v13 main_v14 main_v15 (maximumf : (⟨S50000, .f32⟩ : BufTy).Contents (Elt F) → (⟨S50000, .f32⟩ : BufTy).Contents (Elt F) → (⟨S50000, .f32⟩ : BufTy).Contents (Elt F)),
    StableHlo.unary main_v15 main_v16 (broadcastInDim S50000x1 ![0] bcast_S50000_S50000x1_0 : (⟨S50000, .f32⟩ : BufTy).Contents (Elt F) → (⟨S50000x1, .f32⟩ : BufTy).Contents (Elt F)),
    StableHlo.unary main_v16 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_v9 main_v17 main_v18 (Host.divf : (⟨S50000x128, .f32⟩ : BufTy).Contents (Elt F) → (⟨S50000x128, .f32⟩ : BufTy).Contents (Elt F) → (⟨S50000x128, .f32⟩ : BufTy).Contents (Elt F)),
    StableHlo.nullary main_v19 (iotaInDim S50000 32 0),
    StableHlo.unary main_v6 main_v20 ((extractStridedSlice S1 ![499999] · slices_S500000_S1_499999) : (⟨S500000, .i32⟩ : BufTy).Contents (Elt F) → (⟨S1, .i32⟩ : BufTy).Contents (Elt F)),
    StableHlo.reshape main_v20 main_v21 rfl shapeCasts_S1_S_,
    StableHlo.unary main_v21 main_v22 (broadcastInDim S50000 ![] bcast_S_S50000 : (⟨S_, .i32⟩ : BufTy).Contents (Elt F) → (⟨S50000, .i32⟩ : BufTy).Contents (Elt F)),
    StableHlo.binary main_v19 main_v22 main_v23 (cmpi .slt : (⟨S50000, .i32⟩ : BufTy).Contents (Elt F) → (⟨S50000, .i32⟩ : BufTy).Contents (Elt F) → (⟨S50000, .i1⟩ : BufTy).Contents (Elt F)),
    StableHlo.unary main_v23 main_v24 (broadcastInDim S50000x1 ![0] bcast_S50000_S50000x1_0 : (⟨S50000, .i1⟩ : BufTy).Contents (Elt F) → (⟨S50000x1, .i1⟩ : BufTy).Contents (Elt F)),
    StableHlo.TRef.unary (.of main_v24 : StableHlo.TRef sig ⟨S50000x1, .i1⟩) main_call1.v0 (broadcastInDim S50000x128 ![0, 1] bcast_S50000x1_S50000x128_0_1),
    StableHlo.TRef.ternary main_call1.v0 (.of main_v18 : StableHlo.TRef sig ⟨S50000x128, .f32⟩) (.of main_arg1 : StableHlo.TRef sig ⟨S50000x128, .f32⟩) main_call1.v1 select,
    StableHlo.nullary main_c_3 (constantI S_ 32 0#32),
    StableHlo.unary main_c_3 main_v26 (broadcastInDim S500000 ![] bcast_S_S500000 : (⟨S_, .i32⟩ : BufTy).Contents (Elt F) → (⟨S500000, .i32⟩ : BufTy).Contents (Elt F)),
    StableHlo.binary main_v6 main_v26 main_v27 (cmpi .slt : (⟨S500000, .i32⟩ : BufTy).Contents (Elt F) → (⟨S500000, .i32⟩ : BufTy).Contents (Elt F) → (⟨S500000, .i1⟩ : BufTy).Contents (Elt F)),
    StableHlo.nullary main_c_4 (constantI S_ 32 50000#32),
    StableHlo.unary main_c_4 main_v28 (broadcastInDim S500000 ![] bcast_S_S500000 : (⟨S_, .i32⟩ : BufTy).Contents (Elt F) → (⟨S500000, .i32⟩ : BufTy).Contents (Elt F)),
    StableHlo.binary main_v6 main_v28 main_v29 (addi : (⟨S500000, .i32⟩ : BufTy).Contents (Elt F) → (⟨S500000, .i32⟩ : BufTy).Contents (Elt F) → (⟨S500000, .i32⟩ : BufTy).Contents (Elt F)),
    StableHlo.ternary main_v27 main_v29 main_v6 main_v30 (select : (⟨S500000, .i1⟩ : BufTy).Contents (Elt F) → (⟨S500000, .i32⟩ : BufTy).Contents (Elt F) → (⟨S500000, .i32⟩ : BufTy).Contents (Elt F) → (⟨S500000, .i32⟩ : BufTy).Contents (Elt F)),
    StableHlo.unary main_v30 main_v31 (broadcastInDim S500000x1 ![0] bcast_S500000_S500000x1_0 : (⟨S500000, .i32⟩ : BufTy).Contents (Elt F) → (⟨S500000x1, .i32⟩ : BufTy).Contents (Elt F)),
    StableHlo.binary main_arg1 main_v31 main_v32 ((fun x i => Host.gather gather_S50000x128_S500000x1_S500000x128_1_0_n_n_0_1_1128 x i) : (⟨S50000x128, .f32⟩ : BufTy).Contents (Elt F) → (⟨S500000x1, .i32⟩ : BufTy).Contents (Elt F) → (⟨S500000x128, .f32⟩ : BufTy).Contents (Elt F)),
    StableHlo.binary main_arg0 main_v32 main_v33 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)),
    StableHlo.binary main_arg1 main_v25 main_v34 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    StableHlo.unary main_arg2 main_v35 ((transpose S256x128 [1, 0] · transposes_S128x256_S256x128_1_0) : (⟨S128x256, .f32⟩ : BufTy).Contents (Elt F) → (⟨S256x128, .f32⟩ : BufTy).Contents (Elt F)),
    StableHlo.binary main_v33 main_v35 main_v36 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    StableHlo.unary main_arg3 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S500000x128 ![0, 1] bcast_S1x128_S500000x128_0_1 : (⟨S1x128, .f32⟩ : BufTy).Contents (Elt F) → (⟨S500000x128, .f32⟩ : BufTy).Contents (Elt F)),
    StableHlo.binary main_v36 main_v38 main_v39 (addf : (⟨S500000x128, .f32⟩ : BufTy).Contents (Elt F) → (⟨S500000x128, .f32⟩ : BufTy).Contents (Elt F) → (⟨S500000x128, .f32⟩ : BufTy).Contents (Elt F)),
    StableHlo.unary main_arg4 main_v40 ((transpose S256x128 [1, 0] · transposes_S128x256_S256x128_1_0) : (⟨S128x256, .f32⟩ : BufTy).Contents (Elt F) → (⟨S256x128, .f32⟩ : BufTy).Contents (Elt F)),
    StableHlo.binary main_v34 main_v40 main_v41 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg5 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S50000x128 ![0, 1] bcast_S1x128_S50000x128_0_1 : (⟨S1x128, .f32⟩ : BufTy).Contents (Elt F) → (⟨S50000x128, .f32⟩ : BufTy).Contents (Elt F)),
    StableHlo.binary main_v41 main_v43 main_v44 (addf : (⟨S50000x128, .f32⟩ : BufTy).Contents (Elt F) → (⟨S50000x128, .f32⟩ : BufTy).Contents (Elt F) → (⟨S50000x128, .f32⟩ : BufTy).Contents (Elt F)) ]

-- fifty-five binds re-associated: the rewrite under the chain recurses once per statement
set_option maxRecDepth 4096 in
/-- @main is that straight line: the two functions' bodies unfolded at their calls, both sides are one chain of
    steps once sequencing is reassociated. -/
theorem main_eq (c : Dev nD) : main (F := F) c = seq ops := by
  simp only [main, fn_cumsum.body, fn_cumsum_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨StableHlo.nullary_bufs_sub .., StableHlo.unary_bufs_sub .., StableHlo.unary_bufs_sub .., StableHlo.unary_bufs_sub ..,
    StableHlo.binary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub ..,
    StableHlo.unary_bufs_sub .., StableHlo.ternary_bufs_sub .., StableHlo.nullary_bufs_sub .., StableHlo.unary_bufs_sub ..,
    StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.unary_bufs_sub ..,
    StableHlo.unary_bufs_sub .., StableHlo.binary_bufs_sub .., StableHlo.nullary_bufs_sub .., StableHlo.unary_bufs_sub ..,
    StableHlo.reshape_bufs_sub .., StableHlo.unary_bufs_sub .., StableHlo.binary_bufs_sub .., StableHlo.unary_bufs_sub ..,
    StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub ..,
    StableHlo.binary_bufs_sub .., StableHlo.unary_bufs_sub .., StableHlo.binary_bufs_sub .., StableHlo.unary_bufs_sub ..,
    StableHlo.unary_bufs_sub .., StableHlo.binary_bufs_sub .., StableHlo.unary_bufs_sub .., StableHlo.binary_bufs_sub ..,
    StableHlo.unary_bufs_sub .., StableHlo.unary_bufs_sub .., StableHlo.binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefRun

end
-- ==== Proof.RefRun.lean ====
/-
  The reference program's two results, each as one function of the argument arrays, read off its run.

  The first result is the 256-term contraction of the rows of x joined with the gathered rows of imp against the
  transposed first weight, plus the first bias spread over the rows; the second is the same with the rows of imp
  joined with the per-group means against the second weight and bias. The gathered rows and the per-group means
  are the quantities both programs share, here at the group index computed from the ids. Every argument array
  ends as it started: no operation writes one.
-/
import proofs.«163152_j90013924590246_1_alg».proof.Proof.Shared
import proofs.«163152_j90013924590246_1_alg».proof.Proof.RefOps

noncomputable section

namespace Cert.RefRun

open Cert.ReferenceIdeal Cert.ReferenceIdeal.Facts₀ Idealize.ShloMosaic Idealize.ShloMosaic.TcCoe Idealize.SL.Sem
open Idealize.ShloMosaic.StableHlo

variable {F : FTy → Type} [FloatOps F] [Cert.ReferenceIdeal.Facts] [Cert.KernelIdeal.Facts]

/-- The reference's first result as one function of the arguments. -/
def out0 (x : FVec F S500000x128 .f32) (imp : FVec F S50000x128 .f32) (w1 : FVec F S128x256 .f32) (b1 : FVec F S128 .f32)
    (src : IVec S500000 32) : FVec F S500000x128 .f32 :=
  addf (Host.dotGeneral dot_S500000x256_S256x128_S500000x128_1_0_0_1_n_n none
          (concatenate S500000x256 1 [⟨S500000x128, x⟩, ⟨S500000x128, Cert.Shared.gathered imp (Cert.Shared.gid src)⟩]
            concatenates_S500000x128_S500000x128_S500000x256_d1)
          (transpose S256x128 [1, 0] w1 transposes_S128x256_S256x128_1_0))
       (broadcastInDim S500000x128 ![0, 1] bcast_S1x128_S500000x128_0_1 (broadcastInDim S1x128 ![1] bcast_S128_S1x128_1 b1))

/-- The reference's second result as one function of the arguments. -/
def out1 (x : FVec F S500000x128 .f32) (imp : FVec F S50000x128 .f32) (w2 : FVec F S128x256 .f32) (b2 : FVec F S128 .f32)
    (src : IVec S500000 32) : FVec F S50000x128 .f32 :=
  addf (Host.dotGeneral dot_S50000x256_S256x128_S50000x128_1_0_0_1_n_n none
          (concatenate S50000x256 1 [⟨S50000x128, imp⟩, ⟨S50000x128, Cert.Shared.impSecond x imp (Cert.Shared.gid src)⟩]
            concatenates_S50000x128_S50000x128_S50000x256_d1)
          (transpose S256x128 [1, 0] w2 transposes_S128x256_S256x128_1_0))
       (broadcastInDim S50000x128 ![0, 1] bcast_S1x128_S50000x128_0_1 (broadcastInDim S1x128 ![1] bcast_S128_S1x128_1 b2))

/-- Joining two pieces along an axis respects equality of the pieces. -/
theorem concatenate_pair_congr {α : Type} (t : Shape) (a : Fin t.rank) (s₁ s₂ : Shape) (x x' : s₁.Idx → α) (y y' : s₂.Idx → α)
    (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

attribute [local congr] concatenate_pair_congr

/-- A transport along an equation of a type with itself is the identity. -/
theorem cast_self {α : Sort _} (h : α = α) (a : α) : cast h a = a := eq_of_heq (cast_heq h a)

attribute [local irreducible] Host.reduceWindow Host.scatterAdd Host.gather in
set_option maxRecDepth 8192 in
set_option maxHeartbeats 1000000 in
/-- The fold at the first result's buffer is out0 of the arguments' contents: each operation's result at its own
    buffer is its function's value, at any other buffer what was there; the group index, the index table and the
    row gather are the shared quantities' own terms. -/
theorem out0_eq (V : Valuation τ sig (Elt F)) :
    after ops V (main_v39 : DevRef τ sig)
      = out0 (V (main_arg0 : DevRef τ sig)) (V (main_arg1 : DevRef τ sig)) (V (main_arg2 : DevRef τ sig))
          (V (main_arg3 : DevRef τ sig)) (V (main_arg6 : DevRef τ sig)) := by
  after_results_simp
  dsimp only [TRef.toBuf, TRef.ofBuf]
  simp only [cast_self]
  rfl

attribute [local irreducible] Host.reduceWindow Host.scatterAdd Host.gather Host.divf in
set_option maxRecDepth 8192 in
set_option maxHeartbeats 1000000 in
/-- The fold at the second result's buffer is out1 of the arguments' contents: the scattered sums, the counts, the
    quotient, the mask below the last group index and the selection are the per-group means' own term. -/
theorem out1_eq (V : Valuation τ sig (Elt F)) :
    after ops V (main_v44 : DevRef τ sig)
      = out1 (V (main_arg0 : DevRef τ sig)) (V (main_arg1 : DevRef τ sig)) (V (main_arg4 : DevRef τ sig))
          (V (main_arg5 : DevRef τ sig)) (V (main_arg6 : DevRef τ sig)) := by
  after_results_simp
  dsimp only [TRef.toBuf, TRef.ofBuf]
  simp only [cast_self]
  rfl

/-! No operation writes an argument's buffer: each holds at the end what it held at launch. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- From any memory with zero counters every weakly fair execution of the reference terminates; on every device the
    two results end at out0 and out1 of the arguments' launch contents, and the arguments end unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
        r.2.mem ((c.tc : Thread nD τ).loc main_v39) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6))
      ∧ r.2.mem ((c.tc : Thread nD τ).loc main_v44) = out1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c main_v39).trans (out0_eq _), (h c main_v44).trans (out1_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_main m ρ)

end Cert.RefRun

end
-- ==== Proof.Range.lean ====
/-
  The group indices stay inside the table they index, and then the two ways of picking rows agree.

  The precondition ends in the statement that every group index g(i) satisfies 0 ≤ g(i) < 50000 (read as signed
  words), where g is the running sum of the boundary indicator of the ids, the same term both programs compute
  (the precondition writes the running sum's start value as the zero word itself, the programs as that word broadcast
  from a scalar to a scalar, which is the same scalar).
  For such indices the shifted index table is g itself (no entry is negative), every row's index passes the test
  0 ≤ index ≤ 49999, and so picking rows with the out-of-range fill picks exactly the rows the clamped gather picks.
-/
import proofs.«163152_j90013924590246_1_alg».proof.Pre_finite_inputs
import proofs.«163152_j90013924590246_1_alg».proof.Proof.Shared
import Idealize.ShloMosaic.Lib.ReduceAll
import Idealize.ShloMosaic.Lib.ValueIdx
import Idealize.ShloMosaic.Lib.Pipeline.Value

noncomputable section

namespace Cert.Range

open Idealize.ShloMosaic Idealize.ShloMosaic.ValueIdx

variable {F : FTy → Type} [FloatOps F] [Cert.KernelIdeal.Facts] [Cert.Pre_finite_inputs.Facts]

/-- A scalar broadcast to a scalar is itself. -/
theorem bcast_scalar {α : Type} (h : (⟨0, ![]⟩ : Shape).BroadcastsInDim ⟨0, ![]⟩ (![] : Fin 0 → Fin 0)) (v : (⟨0, ![]⟩ : Shape).Idx → α) :
    broadcastInDim ⟨0, ![]⟩ ![] h v = v := by
  funext j
  unfold broadcastInDim
  exact congrArg v (funext fun a => a.elim0)

/-- Every group index is a signed word in 0 … 49999. -/
def InRange (g : IVec Cert.KernelIdeal.S500000 32) : Prop :=
  ∀ i : Cert.KernelIdeal.S500000.Idx, 0 ≤ (g i).toInt ∧ (g i).toInt < 50000

/-- The precondition says the group indices are in range. -/
theorem inRange_of_pre (a0 : FVec F Cert.Pre_finite_inputs.S500000x128 .f32) (a1 : FVec F Cert.Pre_finite_inputs.S50000x128 .f32)
    (a2 : FVec F Cert.Pre_finite_inputs.S128x256 .f32) (a3 : FVec F Cert.Pre_finite_inputs.S128 .f32)
    (a4 : FVec F Cert.Pre_finite_inputs.S128x256 .f32) (a5 : FVec F Cert.Pre_finite_inputs.S128 .f32)
    (src : IVec Cert.Pre_finite_inputs.S500000 32)
    (h : Cert.Pre_finite_inputs.fn (F := F) a0 a1 a2 a3 a4 a5 src = fun _ => 1#1) :
    InRange (Cert.Shared.gid src) := by
  intro i
  have h0 := congrFun h ix0
  dsimp only [Cert.Pre_finite_inputs.fn, Cert.Pre_finite_inputs.fn_part1, Cert.Pre_finite_inputs.fn_part2] at h0
  obtain ⟨-, h41⟩ := IntOp.andi_eq_one.1 h0
  haveI : Subsingleton Cert.Pre_finite_inputs.S_.Idx := ⟨fun a b => funext fun d => d.elim0⟩
  have hi := Host.reduce_andi_all _ _ _ _ _ h41 i
  obtain ⟨hge, hlt⟩ := IntOp.andi_eq_one.1 hi
  have hge' := IntOp.cmpi_sge.1 hge
  have hlt' := IntOp.cmpi_slt.1 hlt
  have e : Cert.Shared.gid src = Host.reduceWindow IntOp.addi ![500000] ![1] ![499999] ![0] (Cert.Shared.boundary src)
      (constantI Cert.KernelIdeal.S_ 32 0#32) Cert.KernelIdeal.Facts₀.reduceWindows_S500000_S500000_w500000s1p499999_0 Cert.KernelIdeal.Facts₀.h_S_ := by
    unfold Cert.Shared.gid
    rw [bcast_scalar]
  rw [e]
  exact ⟨hge', hlt'⟩

/-- A running conjunction over words that are all 1, started at 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- With the group indices in range the shifted index table holds the group index itself. -/
theorem rowIdx_apply (g : IVec Cert.KernelIdeal.S500000 32) (hg : InRange g) (i : Cert.KernelIdeal.S500000x1.Idx) :
    ∃ j : Cert.KernelIdeal.S500000.Idx, Cert.Shared.rowIdx g i = g j := by
  obtain ⟨j, hj⟩ : ∃ j : Cert.KernelIdeal.S500000.Idx, Cert.Shared.rowIdx g i
      = (select (cmpi .slt g (broadcastInDim Cert.KernelIdeal.S500000 ![] Cert.KernelIdeal.Facts₀.bcast_S_S500000 (constantI Cert.KernelIdeal.S_ 32 0#32)))
          (addi g (broadcastInDim Cert.KernelIdeal.S500000 ![] Cert.KernelIdeal.Facts₀.bcast_S_S500000 (constantI Cert.KernelIdeal.S_ 32 50000#32))) g) j :=
    ⟨_, rfl⟩
  refine ⟨j, ?_⟩
  rw [hj, select_apply]
  unfold Scalar.select
  rw [if_neg]
  intro hc
  have h1 : (g j).toInt < (0#32 : BitVec 32).toInt := IntOp.cmpi_slt.1 hc
  have h2 : (0#32 : BitVec 32).toInt = 0 := by decide
  have h0 := (hg j).1
  omega

/-- With the group indices in range every row's index passes the range test. -/
theorem inRange_eq_one (g : IVec Cert.KernelIdeal.S500000 32) (hg : InRange g) (idx : Cert.KernelIdeal.S500000x128.Idx) :
    Cert.Shared.inRange g idx = 1#1 := by
  unfold Cert.Shared.inRange broadcastInDim
  rw [Host.reduce_eq_foldl]
  refine foldl_andi_one _ (fun i => ?_) _
  obtain ⟨j, hj⟩ := rowIdx_apply g hg i
  refine IntOp.andi_eq_one.2 ⟨?_, ?_⟩
  · refine IntOp.cmpi_sge.2 ?_
    rw [hj]
    exact (hg j).1
  · refine IntOp.cmpi_sle.2 ?_
    rw [hj]
    have := (hg j).2
    show (g j).toInt ≤ (49999#32 : BitVec 32).toInt
    rw [show (49999#32 : BitVec 32).toInt = 49999 from by decide]
    omega

/-- With the group indices in range, picking rows with the out-of-range fill is the clamped gather. -/
theorem taken_eq_gathered (imp : FVec F Cert.KernelIdeal.S50000x128 .f32) (g : IVec Cert.KernelIdeal.S500000 32) (hg : InRange g) :
    Cert.Shared.taken imp g = Cert.Shared.gathered imp g := by
  funext idx
  unfold Cert.Shared.taken
  rw [select_apply, inRange_eq_one g hg idx]
  rfl

end Cert.Range

end
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.Algebra.lean ====
/-
  One 256-term contraction against two 128-term ones.

  Let l0, l1 be matrices with M rows and 128 columns, w a matrix with 128 rows and 256 columns, b a vector of 128 entries.
  * The reference form: lay l0 and l1 side by side into M × 256, multiply by the transpose of w, add b to every row.
    Entry (i, j) is the sum over all 256 columns k of cat(i, k) · w(j, k), plus b(j). Splitting the 256 columns into the
    first and the last 128, the first half of the sum sees l0 and the columns 0 … 127 of w, the second half l1 and the
    columns 128 … 255: only the regrouping of a finite sum, which holds for extended reals as for any commutative monoid.
  * The blocked form: the transposes of the left and the right half of w are 128 × 128 matrices wa, wb with
    wa(k, j) = w(j, k) and wb(k, j) = w(j, 128 + k); entry (i, j) is (sum_k l0(i, k) · wa(k, j) + sum_k l1(i, k) · wb(k, j))
    plus the entry (0, j) of b written as a one-row matrix.
  Both are the same expression.
-/
import proofs.«163152_j90013924590246_1_alg».proof.Proof.LibMatmul
import proofs.«163152_j90013924590246_1_alg».proof.Proof.LibConcatCols
import Idealize.ShloMosaic.Lib.ValueLayout

open scoped BigOperators

noncomputable section

namespace Cert.Algebra

open Idealize.ShloMosaic Idealize.ShloMosaic.ValueIdx

variable {M : Nat}

/-- The common value: the two half sums and the bias. -/
def entry (l0 l1 : (⟨2, ![M, 128]⟩ : Shape).Idx → EReal) (w : (⟨2, ![128, 256]⟩ : Shape).Idx → EReal)
    (b : (⟨1, ![128]⟩ : Shape).Idx → EReal) (i : Fin M) (j : Fin 128) : EReal :=
  ((∑ k : Fin 128, l0 (ix2 i k) * w (ix2 j (Fin.castAdd 128 k)))
    + (∑ k : Fin 128, l1 (ix2 i k) * w (ix2 j (Fin.natAdd 128 k)))) + b (ix1 j)

/-- The reference form at an entry. -/
theorem ref_form (dd : DotDims ⟨2, ![M, 256]⟩ ⟨2, ![256, 128]⟩ ⟨2, ![M, 128]⟩) (hdd : dd = DotDims.plain M 256 128)
    (l0 l1 : FVec Ideal ⟨2, ![M, 128]⟩ .f32) (w : FVec Ideal ⟨2, ![128, 256]⟩ .f32) (b : FVec Ideal ⟨1, ![128]⟩ .f32)
    (hc : Shape.Concatenates [⟨2, ![M, 128]⟩, ⟨2, ![M, 128]⟩] ⟨2, ![M, 256]⟩ 1)
    (ht : (⟨2, ![128, 256]⟩ : Shape).Transposes [1, 0] ⟨2, ![256, 128]⟩)
    (hb1 : (⟨1, ![128]⟩ : Shape).BroadcastsInDim ⟨2, ![1, 128]⟩ (![1] : Fin 1 → Fin 2))
    (hb2 : (⟨2, ![1, 128]⟩ : Shape).BroadcastsInDim ⟨2, ![M, 128]⟩ (![0, 1] : Fin 2 → Fin 2))
    (i : Fin M) (j : Fin 128) :
    addf (Host.dotGeneral (F := Ideal) dd none
        (concatenate ⟨2, ![M, 256]⟩ 1 [⟨⟨2, ![M, 128]⟩, l0⟩, ⟨⟨2, ![M, 128]⟩, l1⟩] hc)
        (transpose ⟨2, ![256, 128]⟩ [1, 0] w ht))
      (broadcastInDim ⟨2, ![M, 128]⟩ ![0, 1] hb2 (broadcastInDim ⟨2, ![1, 128]⟩ ![1] hb1 b)) (ix2 i j)
      = entry l0 l1 w b i j := by
  subst hdd
  rw [addf_apply, Cert.MatOps.dotGeneral_plain_apply]
  unfold entry
  congr 1
  · show (∑ k : Fin (128 + 128), _) = _
    rw [Fin.sum_univ_add]
    congr 1
    · refine Finset.sum_congr rfl fun k _ => ?_
      rw [Cert.ConcatCols.pair_left l0 l1 hc i k (Fin.castAdd 128 k) rfl, Cert.MatOps.transpose10_apply]
    · refine Finset.sum_congr rfl fun k _ => ?_
      rw [Cert.ConcatCols.pair_right l0 l1 hc i k (Fin.natAdd 128 k) rfl, Cert.MatOps.transpose10_apply]
  · rw [broadcastInDim_apply ![0, 1] hb2 _ (ix2 i j) (ix2 0 j) (fun a => match a with
        | ⟨0, _⟩ => rfl
        | ⟨1, _⟩ => rfl),
      broadcastInDim_apply ![1] hb1 b (ix2 0 j) (ix1 j) (fun a => match a with
        | ⟨0, _⟩ => rfl)]

/-- The transpose of the left half of w at (k, j) is w(j, k). -/
theorem left_half (w : (⟨2, ![128, 256]⟩ : Shape).Idx → EReal)
    (hs : (⟨2, ![128, 256]⟩ : Shape).Slices ![0, 0] ⟨2, ![128, 128]⟩)
    (ht : (⟨2, ![128, 128]⟩ : Shape).Transposes [1, 0] ⟨2, ![128, 128]⟩) (k j : Fin 128) :
    transpose ⟨2, ![128, 128]⟩ [1, 0] (extractStridedSlice ⟨2, ![128, 128]⟩ ![0, 0] w hs) ht (ix2 k j)
      = w (ix2 j (Fin.castAdd 128 k)) := by
  rw [Cert.MatOps.transpose10_apply]
  exact extractStridedSlice_apply ![0, 0] w hs (ix2 j k) (ix2 j (Fin.castAdd 128 k)) (fun a => match a with
    | ⟨0, _⟩ => by show j.val = 0 + j.val; omega
    | ⟨1, _⟩ => by show k.val = 0 + k.val; omega)

/-- The transpose of the right half of w at (k, j) is w(j, 128 + k). -/
theorem right_half (w : (⟨2, ![128, 256]⟩ : Shape).Idx → EReal)
    (hs : (⟨2, ![128, 256]⟩ : Shape).Slices ![0, 128] ⟨2, ![128, 128]⟩)
    (ht : (⟨2, ![128, 128]⟩ : Shape).Transposes [1, 0] ⟨2, ![128, 128]⟩) (k j : Fin 128) :
    transpose ⟨2, ![128, 128]⟩ [1, 0] (extractStridedSlice ⟨2, ![128, 128]⟩ ![0, 128] w hs) ht (ix2 k j)
      = w (ix2 j (Fin.natAdd 128 k)) := by
  rw [Cert.MatOps.transpose10_apply]
  exact extractStridedSlice_apply ![0, 128] w hs (ix2 j k) (ix2 j (Fin.natAdd 128 k)) (fun a => match a with
    | ⟨0, _⟩ => by show j.val = 0 + j.val; omega
    | ⟨1, _⟩ => by show 128 + k.val = 128 + k.val; rfl)

/-- The blocked form is the common value. -/
theorem blocked_form (l0 l1 : (⟨2, ![M, 128]⟩ : Shape).Idx → EReal) (w : (⟨2, ![128, 256]⟩ : Shape).Idx → EReal)
    (b : (⟨1, ![128]⟩ : Shape).Idx → EReal)
    (wa wb : (⟨2, ![128, 128]⟩ : Shape).Idx → EReal) (br : (⟨2, ![1, 128]⟩ : Shape).Idx → EReal)
    (hwa : ∀ k j : Fin 128, wa (ix2 k j) = w (ix2 j (Fin.castAdd 128 k)))
    (hwb : ∀ k j : Fin 128, wb (ix2 k j) = w (ix2 j (Fin.natAdd 128 k)))
    (hbr : ∀ j : Fin 128, br (ix2 0 j) = b (ix1 j)) (i : Fin M) (j : Fin 128) :
    ((∑ k : Fin 128, l0 (ix2 i k) * wa (ix2 k j)) + (∑ k : Fin 128, l1 (ix2 i k) * wb (ix2 k j))) + br (ix2 0 j)
      = entry l0 l1 w b i j := by
  unfold entry
  rw [hbr]
  congr 2
  · exact Finset.sum_congr rfl fun k _ => by rw [hwa]
  · exact Finset.sum_congr rfl fun k _ => by rw [hwb]

end Cert.Algebra

end
-- ==== Proof.Bridge.lean ====
/-
  The two programs' results are one function of the arguments.

  Region 0 of the kernel program leaves in its result array, at (i, j), the two 128-term sums over its operand arrays
  plus the bias row; its operands are x, the rows of imp picked by the group index with the out-of-range fill, the
  transposed halves of W1 and b1 as a one-row matrix. The precondition keeps every group index inside the table, so the
  filled pick is the clamped gather the reference uses; the transposed halves read W1's left and right 128 columns; and the
  reference's 256-term contraction of the side-by-side operand splits into exactly these two sums. Region 1 is the same
  with imp, the per-group means, W2 and b2.
-/
import proofs.«163152_j90013924590246_1_alg».proof.Defs
import proofs.«163152_j90013924590246_1_alg».proof.Proof.KernelRun
import proofs.«163152_j90013924590246_1_alg».proof.Proof.KernelHost
import proofs.«163152_j90013924590246_1_alg».proof.Proof.KernelBlocks
import proofs.«163152_j90013924590246_1_alg».proof.Proof.RefRun
import proofs.«163152_j90013924590246_1_alg».proof.Proof.Range
import proofs.«163152_j90013924590246_1_alg».proof.Proof.Algebra
import proofs.«163152_j90013924590246_1_alg».proof.Proof.Gen.ReferenceIdeal
import proofs.«163152_j90013924590246_1_alg».proof.Proof.Gen.Pre_finite_inputs

noncomputable section

namespace Cert.Bridge

open Idealize.ShloMosaic Idealize.ShloMosaic.ValueIdx Idealize.SL.Sem
open Cert.KernelIdeal Cert.KernelIdeal.Gen

variable (m : (ℓ : Loc nD τ sig) → Buf (Elt Ideal) ℓ) (ρ : Dev nD → PrngReg)

/-- Region 0's result array is the reference's first result of the same arguments. -/
theorem kernel_out0 (hpre : Cert.Pre_KernelIdeal m) (c : Dev nD) :
    (Gen.dat0 (Gen.V6 m ρ) c).arrAt 5 cfg0.N
      = Cert.RefRun.out0 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg6)) := by
  have hr := Cert.Range.inRange_of_pre _ _ _ _ _ _ _ (hpre c)
  funext idx
  obtain ⟨i, j, rfl⟩ : ∃ (i : Fin 500000) (j : Fin 128), idx = ix2 i j := ⟨idx 0, idx 1, eq_ix2 idx⟩
  refine (Cert.KernelBlocks.final0 (Gen.V6 m ρ) c _ _ _ _ _ (Cert.KernelRun.V6_x m ρ c)
    ((Cert.KernelRun.V6_g m ρ c).trans (Cert.Range.taken_eq_gathered _ _ hr)) (Cert.KernelRun.V6_wa m ρ c)
    (Cert.KernelRun.V6_wb m ρ c) (Cert.KernelRun.V6_b m ρ c) i j).trans ?_
  refine (Cert.Algebra.blocked_form _ _ (m ((c.tc : Thread nD τ).loc main_arg2)) (m ((c.tc : Thread nD τ).loc main_arg3)) _ _ _
    (Cert.Algebra.left_half _ _ _) (Cert.Algebra.right_half _ _ _) (fun j => shapeCast_a_1a_apply _ _ 0 j) i j).trans ?_
  unfold Cert.RefRun.out0
  exact (Cert.Algebra.ref_form _ rfl _ _ _ _ _ _ _ _ i j).symm

/-- Region 1's result array is the reference's second result of the same arguments. -/
theorem kernel_out1 (c : Dev nD) :
    (Gen.dat1 (Gen.V7 m ρ) c).arrAt 5 cfg1.N
      = Cert.RefRun.out1 (F := Ideal) (m ((c.tc : Thread nD τ).loc main_arg0)) (m ((c.tc : Thread nD τ).loc main_arg1))
          (m ((c.tc : Thread nD τ).loc main_arg4)) (m ((c.tc : Thread nD τ).loc main_arg5)) (m ((c.tc : Thread nD τ).loc main_arg6)) := by
  funext idx
  obtain ⟨i, j, rfl⟩ : ∃ (i : Fin 50000) (j : Fin 128), idx = ix2 i j := ⟨idx 0, idx 1, eq_ix2 idx⟩
  refine (Cert.KernelBlocks.final1 (Gen.V7 m ρ) c _ _ _ _ _ (Cert.KernelRun.V7_x m ρ c) (Cert.KernelRun.V7_g m ρ c)
    (Cert.KernelRun.V7_wa m ρ c) (Cert.KernelRun.V7_wb m ρ c) (Cert.KernelRun.V7_b m ρ c) i j).trans ?_
  refine (Cert.Algebra.blocked_form _ _ (m ((c.tc : Thread nD τ).loc main_arg4)) (m ((c.tc : Thread nD τ).loc main_arg5)) _ _ _
    (Cert.Algebra.left_half _ _ _) (Cert.Algebra.right_half _ _ _) (fun j => shapeCast_a_1a_apply _ _ 0 j) i j).trans ?_
  unfold Cert.RefRun.out1
  exact (Cert.Algebra.ref_form _ rfl _ _ _ _ _ _ _ _ i j).symm

end Cert.Bridge

end
-- ==== Proof.lean ====
/-
  The certificate's five claims.

  The kernel program runs two launches of one Pallas body (out = a · Wa + g · Wb + bias, on row blocks of 5000 rows)
  after a stretch of host operations that forms, from the ids, the group index of every row, the per-group means, and a
  row pick of the embedding table by the group index; the reference forms the same quantities and then multiplies the
  side-by-side operands by the transposed weight in one 256-term contraction.
  * The three frames: the kernel program's two (word level and idealized) are the generated frame proofs; the
    reference, a straight line of host operations, by its run with the results dropped.
  * The idealization rewrote nothing, so there is nothing to preserve.
  * Equal results at the ideal values: the kernel program's run names its two result arrays as what the two regions'
    write-backs leave; block by block these are the two 128-term sums plus the bias at every entry; under the
    precondition (all float inputs finite, every group index inside the 50000-row table it indexes) the row pick with an
    out-of-range fill is the clamped gather; and a 256-term sum over side-by-side operands is the sum of the two
    128-term sums. So both programs end at one function of the arguments.
-/
import proofs.«163152_j90013924590246_1_alg».proof.Defs
import proofs.«163152_j90013924590246_1_alg».proof.Proof.Gen.Kernel
import proofs.«163152_j90013924590246_1_alg».proof.Proof.Gen.Kernel.Frame
import proofs.«163152_j90013924590246_1_alg».proof.Proof.Gen.KernelIdeal
import proofs.«163152_j90013924590246_1_alg».proof.Proof.Gen.KernelIdeal.Frame
import proofs.«163152_j90013924590246_1_alg».proof.Proof.Gen.ReferenceIdeal
import proofs.«163152_j90013924590246_1_alg».proof.Proof.Gen.Pre_finite_inputs
import proofs.«163152_j90013924590246_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.RefRun.run (F := Ideal) m ρ)

theorem preserves : Cert.preserves_Kernel_KernelIdeal := trivial

/-- Both programs end with their results at the reference's two functions of the (agreeing) arguments. -/
theorem algebraic : Cert.algebraic_KernelIdeal_ReferenceIdeal := by
  intro m ρ m' ρ' hpre hagree
  refine ⟨_, _, (θ_run Cert.KernelIdeal.defs _ _).mono (fun r h c =>
      ⟨(h c).1.trans (Cert.Bridge.kernel_out0 m ρ hpre c), (h c).2.1.trans (Cert.Bridge.kernel_out1 m ρ c), (h c).2.2⟩)
      (Cert.KernelRun.run (F := Ideal) m ρ), ?_⟩
  refine (θ_run Cert.ReferenceIdeal.defs _ _).mono (fun r h c => ⟨(h c).1.trans ?_, (h c).2.1.trans ?_, (h c).2.2⟩)
    (Cert.RefRun.run (F := Ideal) m' ρ')
  · rw [(hagree c).1, (hagree c).2.1, (hagree c).2.2.1, (hagree c).2.2.2.1, (hagree c).2.2.2.2.2.2]
  · rw [(hagree c).1, (hagree c).2.1, (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
